-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)) (v5 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_v12) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v14) = v3 c
          ∧ r.2.mem ((c.tc : Thread Cert.ReferenceIdeal.nD Cert.ReferenceIdeal.τ).loc Cert.ReferenceIdeal.main_v19) = v4 c
          ∧ r.2.mem ((c.tc : Thread Cert.ReferenceIdeal.nD Cert.ReferenceIdeal.τ).loc Cert.ReferenceIdeal.main_v24) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S784x12 : Shape := ⟨2, ![784, 12]⟩
abbrev S12 : Shape := ⟨1, ![12]⟩
abbrev S12x10 : Shape := ⟨2, ![12, 10]⟩
abbrev S10 : Shape := ⟨1, ![10]⟩
abbrev S10x8 : Shape := ⟨2, ![10, 8]⟩
abbrev S8 : Shape := ⟨1, ![8]⟩
abbrev S8x6 : Shape := ⟨2, ![8, 6]⟩
abbrev S6 : Shape := ⟨1, ![6]⟩
abbrev S6x4 : Shape := ⟨2, ![6, 4]⟩
abbrev S4 : Shape := ⟨1, ![4]⟩
abbrev S4x10 : Shape := ⟨2, ![4, 10]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S784x12 : S_.BroadcastsInDim S784x12 (![] : Fin 0 → Fin S784x12.rank)
  reducesTo_S784x12_S_d0_1 : S784x12.ReducesTo [0, 1] S_
  bcast_S_S12 : S_.BroadcastsInDim S12 (![] : Fin 0 → Fin S12.rank)
  reducesTo_S12_S_d0 : S12.ReducesTo [0] S_
  bcast_S_S12x10 : S_.BroadcastsInDim S12x10 (![] : Fin 0 → Fin S12x10.rank)
  reducesTo_S12x10_S_d0_1 : S12x10.ReducesTo [0, 1] S_
  bcast_S_S10 : S_.BroadcastsInDim S10 (![] : Fin 0 → Fin S10.rank)
  reducesTo_S10_S_d0 : S10.ReducesTo [0] S_
  bcast_S_S10x8 : S_.BroadcastsInDim S10x8 (![] : Fin 0 → Fin S10x8.rank)
  reducesTo_S10x8_S_d0_1 : S10x8.ReducesTo [0, 1] S_
  bcast_S_S8 : S_.BroadcastsInDim S8 (![] : Fin 0 → Fin S8.rank)
  reducesTo_S8_S_d0 : S8.ReducesTo [0] S_
  bcast_S_S8x6 : S_.BroadcastsInDim S8x6 (![] : Fin 0 → Fin S8x6.rank)
  reducesTo_S8x6_S_d0_1 : S8x6.ReducesTo [0, 1] S_
  bcast_S_S6 : S_.BroadcastsInDim S6 (![] : Fin 0 → Fin S6.rank)
  reducesTo_S6_S_d0 : S6.ReducesTo [0] S_
  bcast_S_S6x4 : S_.BroadcastsInDim S6x4 (![] : Fin 0 → Fin S6x4.rank)
  reducesTo_S6x4_S_d0_1 : S6x4.ReducesTo [0, 1] S_
  bcast_S_S4 : S_.BroadcastsInDim S4 (![] : Fin 0 → Fin S4.rank)
  reducesTo_S4_S_d0 : S4.ReducesTo [0] S_
  bcast_S_S4x10 : S_.BroadcastsInDim S4x10 (![] : Fin 0 → Fin S4x10.rank)
  reducesTo_S4x10_S_d0_1 : S4x10.ReducesTo [0, 1] S_

variable [Facts]

def fn_part3 {F : FTy → Type} [FloatOps F] (main_arg11 : FVec F S4x10 .f32) (main_arg12 : FVec F S10 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S4x10 .f32 := Host.absf main_arg11
  let main_cst_20 : FVec F S_ .f32 := constant S_ .f32 0x7F800000#32
  let main_v55 : FVec F S4x10 .f32 := broadcastInDim S4x10 ![] bcast_S_S4x10 main_cst_20
  let main_v56 : IVec S4x10 1 := cmpf .olt main_v54 main_v55
  let main_c_21 : IVec S_ 1 := constantI S_ 1 1#1
  let main_v57 : IVec S_ 1 := (fun x v => Host.reduce IntOp.andi x v reducesTo_S4x10_S_d0_1 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg7 : FVec F S8x6 .f32) (main_arg8 : FVec F S6 .f32) (main_arg9 : FVec F S6x4 .f32) (main_arg10 : FVec F S4 .f32) (main_arg11 : FVec F S4x10 .f32) (main_arg12 : FVec F S10 .f32) (main_v33 : IVec S_ 1) : IVec S_ 1 :=
  let main_v34 : FVec F S8x6 .f32 := Host.absf main_arg7
  let main_cst_12 : FVec F S_ .f32 := constant S_ .f32 0x7F800000#32
  let main_v35 : FVec F S8x6 .f32 := broadcastInDim S8x6 ![] bcast_S_S8x6 main_cst_12
  let main_v36 : IVec S8x6 1 := cmpf .olt main_v34 main_v35
  let main_c_13 : IVec S_ 1 := constantI S_ 1 1#1
  let main_v37 : IVec S_ 1 := (fun x v => Host.reduce IntOp.andi x v reducesTo_S8x6_S_d0_1 h_S_) main_v36 main_c_13
  let main_v38 : IVec S_ 1 := andi main_v33 main_v37
  let main_v39 : FVec F S6 .f32 := Host.absf main_arg8
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  let main_v44 : FVec F S6x4 .f32 := Host.absf main_arg9
  let main_cst_16 : FVec F S_ .f32 := constant S_ .f32 0x7F800000#32
  let main_v45 : FVec F S6x4 .f32 := broadcastInDim S6x4 ![] bcast_S_S6x4 main_cst_16
  let main_v46 : IVec S6x4 1 := cmpf .olt main_v44 main_v45
  let main_c_17 : IVec S_ 1 := constantI S_ 1 1#1
  let main_v47 : IVec S_ 1 := (fun x v => Host.reduce IntOp.andi x v reducesTo_S6x4_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_arg11 main_arg12 main_v48 main_v49 main_v50

def fn_part1 {F : FTy → Type} [FloatOps F] (main_arg4 : FVec F S10 .f32) (main_arg5 : FVec F S10x8 .f32) (main_arg6 : FVec F S8 .f32) (main_arg7 : FVec F S8x6 .f32) (main_arg8 : FVec F S6 .f32) (main_arg9 : FVec F S6x4 .f32) (main_arg10 : FVec F S4 .f32) (main_arg11 : FVec F S4x10 .f32) (main_arg12 : FVec F S10 .f32) (main_v13 : IVec S_ 1) (main_v16 : IVec S12x10 1) : IVec S_ 1 :=
  let main_c_5 : IVec S_ 1 := constantI S_ 1 1#1
  let main_v17 : IVec S_ 1 := (fun x v => Host.reduce IntOp.andi x v reducesTo_S12x10_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S10x8 .f32 := Host.absf main_arg5
  let main_cst_8 : FVec F S_ .f32 := constant S_ .f32 0x7F800000#32
  let main_v25 : FVec F S10x8 .f32 := broadcastInDim S10x8 ![] bcast_S_S10x8 main_cst_8
  let main_v26 : IVec S10x8 1 := cmpf .olt main_v24 main_v25
  let main_c_9 : IVec S_ 1 := constantI S_ 1 1#1
  let main_v27 : IVec S_ 1 := (fun x v => Host.reduce IntOp.andi x v reducesTo_S10x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S65536x784 .f32) (main_arg1 : FVec F S784x12 .f32) (main_arg2 : FVec F S12 .f32) (main_arg3 : FVec F S12x10 .f32) (main_arg4 : FVec F S10 .f32) (main_arg5 : FVec F S10x8 .f32) (main_arg6 : FVec F S8 .f32) (main_arg7 : FVec F S8x6 .f32) (main_arg8 : FVec F S6 .f32) (main_arg9 : FVec F S6x4 .f32) (main_arg10 : FVec F S4 .f32) (main_arg11 : FVec F S4x10 .f32) (main_arg12 : FVec F S10 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S784x12 .f32 := Host.absf main_arg1
  let main_cst_0 : FVec F S_ .f32 := constant S_ .f32 0x7F800000#32
  let main_v5 : FVec F S784x12 .f32 := broadcastInDim S784x12 ![] bcast_S_S784x12 main_cst_0
  let main_v6 : IVec S784x12 1 := cmpf .olt main_v4 main_v5
  let main_c_1 : IVec S_ 1 := constantI S_ 1 1#1
  let main_v7 : IVec S_ 1 := (fun x v => Host.reduce IntOp.andi x v reducesTo_S784x12_S_d0_1 h_S_) main_v6 main_c_1
  let main_v8 : IVec S_ 1 := andi main_v3 main_v7
  let main_v9 : FVec F S12 .f32 := Host.absf main_arg2
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_v14 : FVec F S12x10 .f32 := Host.absf main_arg3
  let main_cst_4 : FVec F S_ .f32 := constant S_ .f32 0x7F800000#32
  let main_v15 : FVec F S12x10 .f32 := broadcastInDim S12x10 ![] bcast_S_S12x10 main_cst_4
  let main_v16 : IVec S12x10 1 := cmpf .olt main_v14 main_v15
  fn_part1 (F := F) main_arg4 main_arg5 main_arg6 main_arg7 main_arg8 main_arg9 main_arg10 main_arg11 main_arg12 main_v13 main_v16
-- ==== Kernel.lean ====
abbrev S65536x784 : Shape := ⟨2, ![65536, 784]⟩
abbrev S784x12 : Shape := ⟨2, ![784, 12]⟩
abbrev S12 : Shape := ⟨1, ![12]⟩
abbrev S12x10 : Shape := ⟨2, ![12, 10]⟩
abbrev S10 : Shape := ⟨1, ![10]⟩
abbrev S10x8 : Shape := ⟨2, ![10, 8]⟩
abbrev S8 : Shape := ⟨1, ![8]⟩
abbrev S8x6 : Shape := ⟨2, ![8, 6]⟩
abbrev S6 : Shape := ⟨1, ![6]⟩
abbrev S6x4 : Shape := ⟨2, ![6, 4]⟩
abbrev S4 : Shape := ⟨1, ![4]⟩
abbrev S4x10 : Shape := ⟨2, ![4, 10]⟩
abbrev S1x12 : Shape := ⟨2, ![1, 12]⟩
abbrev S1x10 : Shape := ⟨2, ![1, 10]⟩
abbrev S1x8 : Shape := ⟨2, ![1, 8]⟩
abbrev S1x6 : Shape := ⟨2, ![1, 6]⟩
abbrev S1x4 : Shape := ⟨2, ![1, 4]⟩
abbrev S65536x128 : Shape := ⟨2, ![65536, 128]⟩
abbrev S2048x784 : Shape := ⟨2, ![2048, 784]⟩
abbrev S2048x128 : Shape := ⟨2, ![2048, 128]⟩
abbrev S2048x12 : Shape := ⟨2, ![2048, 12]⟩
abbrev S2048x10 : Shape := ⟨2, ![2048, 10]⟩
abbrev S2048x8 : Shape := ⟨2, ![2048, 8]⟩
abbrev S2048x6 : Shape := ⟨2, ![2048, 6]⟩
abbrev S2048x4 : Shape := ⟨2, ![2048, 4]⟩
abbrev S2048x78 : Shape := ⟨2, ![2048, 78]⟩
abbrev S65536x10 : Shape := ⟨2, ![65536, 10]⟩
abbrev S65536x12 : Shape := ⟨2, ![65536, 12]⟩
abbrev S65536x8 : Shape := ⟨2, ![65536, 8]⟩
abbrev S65536x6 : Shape := ⟨2, ![65536, 6]⟩
abbrev S65536x4 : Shape := ⟨2, ![65536, 4]⟩

abbrev nBuf : Space → Nat
  | .hbm => 26
  | .vmem => 16
  | .smem => 0
  | _ => 0

abbrev bufTy : (tb : Table) → Fin (tcTables nBuf tb) → BufTy
  | .hbm, ⟨0, _⟩ => ⟨S65536x784, .f32⟩
  | .hbm, ⟨1, _⟩ => ⟨S784x12, .f32⟩
  | .hbm, ⟨2, _⟩ => ⟨S12, .f32⟩
  | .hbm, ⟨3, _⟩ => ⟨S12x10, .f32⟩
  | .hbm, ⟨4, _⟩ => ⟨S10, .f32⟩
  | .hbm, ⟨5, _⟩ => ⟨S10x8, .f32⟩
  | .hbm, ⟨6, _⟩ => ⟨S8, .f32⟩
  | .hbm, ⟨7, _⟩ => ⟨S8x6, .f32⟩
  | .hbm, ⟨8, _⟩ => ⟨S6, .f32⟩
  | .hbm, ⟨9, _⟩ => ⟨S6x4, .f32⟩
  | .hbm, ⟨10, _⟩ => ⟨S4, .f32⟩
  | .hbm, ⟨11, _⟩ => ⟨S4x10, .f32⟩
  | .hbm, ⟨12, _⟩ => ⟨S10, .f32⟩
  | .hbm, ⟨13, _⟩ => ⟨S1x12, .f32⟩
  | .hbm, ⟨14, _⟩ => ⟨S1x10, .f32⟩
  | .hbm, ⟨15, _⟩ => ⟨S1x8, .f32⟩
  | .hbm, ⟨16, _⟩ => ⟨S1x6, .f32⟩
  | .hbm, ⟨17, _⟩ => ⟨S1x4, .f32⟩
  | .hbm, ⟨18, _⟩ => ⟨S1x10, .f32⟩
  | .hbm, ⟨19, _⟩ => ⟨S65536x128, .f32⟩
  | .hbm, ⟨20, _⟩ => ⟨S65536x10, .f32⟩
  | .hbm, ⟨21, _⟩ => ⟨S65536x12, .f32⟩
  | .hbm, ⟨22, _⟩ => ⟨S65536x10, .f32⟩
  | .hbm, ⟨23, _⟩ => ⟨S65536x8, .f32⟩
  | .hbm, ⟨24, _⟩ => ⟨S65536x6, .f32⟩
  | .hbm, ⟨25, _⟩ => ⟨S65536x4, .f32⟩
  | .local _ .vmem, ⟨0, _⟩ => ⟨S2048x784, .f32⟩
  | .local _ .vmem, ⟨1, _⟩ => ⟨S2048x784, .f32⟩
  | .local _ .vmem, ⟨2, _⟩ => ⟨S784x12, .f32⟩
  | .local _ .vmem, ⟨3, _⟩ => ⟨S1x12, .f32⟩
  | .local _ .vmem, ⟨4, _⟩ => ⟨S12x10, .f32⟩
  | .local _ .vmem, ⟨5, _⟩ => ⟨S1x10, .f32⟩
  | .local _ .vmem, ⟨6, _⟩ => ⟨S10x8, .f32⟩
  | .local _ .vmem, ⟨7, _⟩ => ⟨S1x8, .f32⟩
  | .local _ .vmem, ⟨8, _⟩ => ⟨S8x6, .f32⟩
  | .local _ .vmem, ⟨9, _⟩ => ⟨S1x6, .f32⟩
  | .local _ .vmem, ⟨10, _⟩ => ⟨S6x4, .f32⟩
  | .local _ .vmem, ⟨11, _⟩ => ⟨S1x4, .f32⟩
  | .local _ .vmem, ⟨12, _⟩ => ⟨S4x10, .f32⟩
  | .local _ .vmem, ⟨13, _⟩ => ⟨S1x10, .f32⟩
  | .local _ .vmem, ⟨14, _⟩ => ⟨S2048x128, .f32⟩
  | .local _ .vmem, ⟨15, _⟩ => ⟨S2048x128, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x6 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x10 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S12_S1x12 : S12.ShapeCasts S1x12
  shapeCasts_S10_S1x10 : S10.ShapeCasts S1x10
  shapeCasts_S8_S1x8 : S8.ShapeCasts S1x8
  shapeCasts_S6_S1x6 : S6.ShapeCasts S1x6
  shapeCasts_S4_S1x4 : S4.ShapeCasts S1x4
  inb_S2048x784_S2048x784_0_0 : ∀ a, (![0, 0] : Fin 2 → Nat) a + S2048x784.size a ≤ S2048x784.size a
  h_S2048x784 : 0 < S2048x784.numel
  inb_S784x12_S784x12_0_0 : ∀ a, (![0, 0] : Fin 2 → Nat) a + S784x12.size a ≤ S784x12.size a
  h_S784x12 : 0 < S784x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S2048x12 : S1x12.Broadcasts S2048x12
  inb_S12x10_S12x10_0_0 : ∀ a, (![0, 0] : Fin 2 → Nat) a + S12x10.size a ≤ S12x10.size a
  h_S12x10 : 0 < S12x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  inb_S10x8_S10x8_0_0 : ∀ a, (![0, 0] : Fin 2 → Nat) a + S10x8.size a ≤ S10x8.size a
  h_S10x8 : 0 < S10x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  inb_S8x6_S8x6_0_0 : ∀ a, (![0, 0] : Fin 2 → Nat) a + S8x6.size a ≤ S8x6.size a
  h_S8x6 : 0 < S8x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S2048x6 : S1x6.Broadcasts S2048x6
  inb_S6x4_S6x4_0_0 : ∀ a, (![0, 0] : Fin 2 → Nat) a + S6x4.size a ≤ S6x4.size a
  h_S6x4 : 0 < S6x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2048x4 : S1x4.Broadcasts S2048x4
  inb_S4x10_S4x10_0_0 : ∀ a, (![0, 0] : Fin 2 → Nat) a + S4x10.size a ≤ S4x10.size a
  h_S4x10 : 0 < S4x10.numel
  inb_S2048x128_S2048x10_0_0 : ∀ a, (![0, 0] : Fin 2 → Nat) a + S2048x10.size a ≤ S2048x128.size a
  h_S2048x10 : 0 < S2048x10.numel
  inb_S2048x128_S2048x12_0_10 : ∀ a, (![0, 10] : Fin 2 → Nat) a + S2048x12.size a ≤ S2048x128.size a
  h_S2048x12 : 0 < S2048x12.numel
  inb_S2048x128_S2048x10_0_22 : ∀ a, (![0, 22] : Fin 2 → Nat) a + S2048x10.size a ≤ S2048x128.size a
  inb_S2048x128_S2048x8_0_32 : ∀ a, (![0, 32] : Fin 2 → Nat) a + S2048x8.size a ≤ S2048x128.size a
  h_S2048x8 : 0 < S2048x8.numel
  inb_S2048x128_S2048x6_0_40 : ∀ a, (![0, 40] : Fin 2 → Nat) a + S2048x6.size a ≤ S2048x128.size a
  h_S2048x6 : 0 < S2048x6.numel
  inb_S2048x128_S2048x4_0_46 : ∀ a, (![0, 46] : Fin 2 → Nat) a + S2048x4.size a ≤ S2048x128.size a
  h_S2048x4 : 0 < S2048x4.numel
  inb_S2048x128_S2048x78_0_50 : ∀ a, (![0, 50] : Fin 2 → Nat) a + S2048x78.size a ≤ S2048x128.size a
  h_S2048x78 : 0 < S2048x78.numel
  slices_S65536x128_S65536x10_0_0 : S65536x128.Slices ![0, 0] S65536x10
  slices_S65536x128_S65536x12_0_10 : S65536x128.Slices ![0, 10] S65536x12
  slices_S65536x128_S65536x10_0_22 : S65536x128.Slices ![0, 22] S65536x10
  slices_S65536x128_S65536x8_0_32 : S65536x128.Slices ![0, 32] S65536x8
  slices_S65536x128_S65536x6_0_40 : S65536x128.Slices ![0, 40] S65536x6
  slices_S65536x128_S65536x4_0_46 : S65536x128.Slices ![0, 46] S65536x4
  dot_S2048x784_S784x12_S2048x12_1_0_0_1_n_n_wf : DotDims.WF S2048x784 S784x12 S2048x12 [1] [0] [0] [1] [] []
  dot_S2048x12_S12x10_S2048x10_1_0_0_1_n_n_wf : DotDims.WF S2048x12 S12x10 S2048x10 [1] [0] [0] [1] [] []
  dot_S2048x10_S10x8_S2048x8_1_0_0_1_n_n_wf : DotDims.WF S2048x10 S10x8 S2048x8 [1] [0] [0] [1] [] []
  dot_S2048x8_S8x6_S2048x6_1_0_0_1_n_n_wf : DotDims.WF S2048x8 S8x6 S2048x6 [1] [0] [0] [1] [] []
  dot_S2048x6_S6x4_S2048x4_1_0_0_1_n_n_wf : DotDims.WF S2048x6 S6x4 S2048x4 [1] [0] [0] [1] [] []
  dot_S2048x4_S4x10_S2048x10_1_0_0_1_n_n_wf : DotDims.WF S2048x4 S4x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S65536x784.size a
  hwx0_0 : ∀ i : grid0.Coords, EltTy.bits .f32 = 32 ∨ (Rect.block (s := S65536x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x12.size a ≤ S784x12.size a
  hwx0_1 : ∀ i : grid0.Coords, EltTy.bits .f32 = 32 ∨ (Rect.block (s := S784x12) S784x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x12.size a ≤ S1x12.size a
  hwx0_2 : ∀ i : grid0.Coords, EltTy.bits .f32 = 32 ∨ (Rect.block (s := S1x12) S1x12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x10.size a ≤ S12x10.size a
  hwx0_3 : ∀ i : grid0.Coords, EltTy.bits .f32 = 32 ∨ (Rect.block (s := S12x10) S12x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x8.size a ≤ S10x8.size a
  hwx0_5 : ∀ i : grid0.Coords, EltTy.bits .f32 = 32 ∨ (Rect.block (s := S10x8) S10x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x6.size a ≤ S8x6.size a
  hwx0_7 : ∀ i : grid0.Coords, EltTy.bits .f32 = 32 ∨ (Rect.block (s := S8x6) S8x6.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x6.size a ≤ S1x6.size a
  hwx0_8 : ∀ i : grid0.Coords, EltTy.bits .f32 = 32 ∨ (Rect.block (s := S1x6) S1x6.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S6x4.size a ≤ S6x4.size a
  hwx0_9 : ∀ i : grid0.Coords, EltTy.bits .f32 = 32 ∨ (Rect.block (s := S6x4) S6x4.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x4.size a ≤ S1x4.size a
  hwx0_10 : ∀ i : grid0.Coords, EltTy.bits .f32 = 32 ∨ (Rect.block (s := S1x4) S1x4.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x10.size a ≤ S4x10.size a
  hwx0_11 : ∀ i : grid0.Coords, EltTy.bits .f32 = 32 ∨ (Rect.block (s := S4x10) S4x10.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x10.size a ≤ S1x10.size a
  hwx0_12 : ∀ i : grid0.Coords, EltTy.bits .f32 = 32 ∨ (Rect.block (s := S1x10) S1x10.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x128.size a ≤ S65536x128.size a
  hwx0_13 : ∀ i : grid0.Coords, EltTy.bits .f32 = 32 ∨ (Rect.block (s := S65536x128) S2048x128.size (cc0_transform_13 i) (hinb0_13 i)).WholeWords (EltTy.packing .f32)

variable [Facts₀]

def dot_S2048x784_S784x12_S2048x12_1_0_0_1_n_n : DotDims S2048x784 S784x12 S2048x12 where
  lhsContracting := [1]
  rhsContracting := [0]
  lhsNonContracting := [0]
  rhsNonContracting := [1]
  lhsBatch := []
  rhsBatch := []
  wf := dot_S2048x784_S784x12_S2048x12_1_0_0_1_n_n_wf
def dot_S2048x12_S12x10_S2048x10_1_0_0_1_n_n : DotDims S2048x12 S12x10 S2048x10 where
  lhsContracting := [1]
  rhsContracting := [0]
  lhsNonContracting := [0]
  rhsNonContracting := [1]
  lhsBatch := []
  rhsBatch := []
  wf := dot_S2048x12_S12x10_S2048x10_1_0_0_1_n_n_wf
def dot_S2048x10_S10x8_S2048x8_1_0_0_1_n_n : DotDims S2048x10 S10x8 S2048x8 where
  lhsContracting := [1]
  rhsContracting := [0]
  lhsNonContracting := [0]
  rhsNonContracting := [1]
  lhsBatch := []
  rhsBatch := []
  wf := dot_S2048x10_S10x8_S2048x8_1_0_0_1_n_n_wf
def dot_S2048x8_S8x6_S2048x6_1_0_0_1_n_n : DotDims S2048x8 S8x6 S2048x6 where
  lhsContracting := [1]
  rhsContracting := [0]
  lhsNonContracting := [0]
  rhsNonContracting := [1]
  lhsBatch := []
  rhsBatch := []
  wf := dot_S2048x8_S8x6_S2048x6_1_0_0_1_n_n_wf
def dot_S2048x6_S6x4_S2048x4_1_0_0_1_n_n : DotDims S2048x6 S6x4 S2048x4 where
  lhsContracting := [1]
  rhsContracting := [0]
  lhsNonContracting := [0]
  rhsNonContracting := [1]
  lhsBatch := []
  rhsBatch := []
  wf := dot_S2048x6_S6x4_S2048x4_1_0_0_1_n_n_wf
def dot_S2048x4_S4x10_S2048x10_1_0_0_1_n_n : DotDims S2048x4 S4x10 S2048x10 where
  lhsContracting := [1]
  rhsContracting := [0]
  lhsNonContracting := [0]
  rhsNonContracting := [1]
  lhsBatch := []
  rhsBatch := []
  wf := dot_S2048x4_S4x10_S2048x10_1_0_0_1_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S784x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S12x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S10x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x6.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x6.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S6x4.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x4.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S4x10.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x10.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S2048x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S65536x784 : Shape := ⟨2, ![65536, 784]⟩
abbrev S784x12 : Shape := ⟨2, ![784, 12]⟩
abbrev S12 : Shape := ⟨1, ![12]⟩
abbrev S12x10 : Shape := ⟨2, ![12, 10]⟩
abbrev S10 : Shape := ⟨1, ![10]⟩
abbrev S10x8 : Shape := ⟨2, ![10, 8]⟩
abbrev S8 : Shape := ⟨1, ![8]⟩
abbrev S8x6 : Shape := ⟨2, ![8, 6]⟩
abbrev S6 : Shape := ⟨1, ![6]⟩
abbrev S6x4 : Shape := ⟨2, ![6, 4]⟩
abbrev S4 : Shape := ⟨1, ![4]⟩
abbrev S4x10 : Shape := ⟨2, ![4, 10]⟩
abbrev S65536x12 : Shape := ⟨2, ![65536, 12]⟩
abbrev S1x12 : Shape := ⟨2, ![1, 12]⟩
abbrev S65536x10 : Shape := ⟨2, ![65536, 10]⟩
abbrev S1x10 : Shape := ⟨2, ![1, 10]⟩
abbrev S65536x8 : Shape := ⟨2, ![65536, 8]⟩
abbrev S1x8 : Shape := ⟨2, ![1, 8]⟩
abbrev S65536x6 : Shape := ⟨2, ![65536, 6]⟩
abbrev S1x6 : Shape := ⟨2, ![1, 6]⟩
abbrev S65536x4 : Shape := ⟨2, ![65536, 4]⟩
abbrev S1x4 : Shape := ⟨2, ![1, 4]⟩

abbrev nBuf : Space → Nat
  | .hbm => 42
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S784x12, .f32⟩
  | .hbm, ⟨2, _⟩ => ⟨S12, .f32⟩
  | .hbm, ⟨3, _⟩ => ⟨S12x10, .f32⟩
  | .hbm, ⟨4, _⟩ => ⟨S10, .f32⟩
  | .hbm, ⟨5, _⟩ => ⟨S10x8, .f32⟩
  | .hbm, ⟨6, _⟩ => ⟨S8, .f32⟩
  | .hbm, ⟨7, _⟩ => ⟨S8x6, .f32⟩
  | .hbm, ⟨8, _⟩ => ⟨S6, .f32⟩
  | .hbm, ⟨9, _⟩ => ⟨S6x4, .f32⟩
  | .hbm, ⟨10, _⟩ => ⟨S4, .f32⟩
  | .hbm, ⟨11, _⟩ => ⟨S4x10, .f32⟩
  | .hbm, ⟨12, _⟩ => ⟨S10, .f32⟩
  | .hbm, ⟨13, _⟩ => ⟨S65536x12, .f32⟩
  | .hbm, ⟨14, _⟩ => ⟨S1x12, .f32⟩
  | .hbm, ⟨15, _⟩ => ⟨S65536x12, .f32⟩
  | .hbm, ⟨16, _⟩ => ⟨S65536x12, .f32⟩
  | .hbm, ⟨17, _⟩ => ⟨S65536x12, .f32⟩
  | .hbm, ⟨18, _⟩ => ⟨S65536x10, .f32⟩
  | .hbm, ⟨19, _⟩ => ⟨S1x10, .f32⟩
  | .hbm, ⟨20, _⟩ => ⟨S65536x10, .f32⟩
  | .hbm, ⟨21, _⟩ => ⟨S65536x10, .f32⟩
  | .hbm, ⟨22, _⟩ => ⟨S65536x10, .f32⟩
  | .hbm, ⟨23, _⟩ => ⟨S65536x8, .f32⟩
  | .hbm, ⟨24, _⟩ => ⟨S1x8, .f32⟩
  | .hbm, ⟨25, _⟩ => ⟨S65536x8, .f32⟩
  | .hbm, ⟨26, _⟩ => ⟨S65536x8, .f32⟩
  | .hbm, ⟨27, _⟩ => ⟨S65536x8, .f32⟩
  | .hbm, ⟨28, _⟩ => ⟨S65536x6, .f32⟩
  | .hbm, ⟨29, _⟩ => ⟨S1x6, .f32⟩
  | .hbm, ⟨30, _⟩ => ⟨S65536x6, .f32⟩
  | .hbm, ⟨31, _⟩ => ⟨S65536x6, .f32⟩
  | .hbm, ⟨32, _⟩ => ⟨S65536x6, .f32⟩
  | .hbm, ⟨33, _⟩ => ⟨S65536x4, .f32⟩
  | .hbm, ⟨34, _⟩ => ⟨S1x4, .f32⟩
  | .hbm, ⟨35, _⟩ => ⟨S65536x4, .f32⟩
  | .hbm, ⟨36, _⟩ => ⟨S65536x4, .f32⟩
  | .hbm, ⟨37, _⟩ => ⟨S65536x4, .f32⟩
  | .hbm, ⟨38, _⟩ => ⟨S65536x10, .f32⟩
  | .hbm, ⟨39, _⟩ => ⟨S1x10, .f32⟩
  | .hbm, ⟨40, _⟩ => ⟨S65536x10, .f32⟩
  | .hbm, ⟨41, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S12_S1x12_1 : S12.BroadcastsInDim S1x12 (![1] : Fin 1 → Fin S1x12.rank)
  bcast_S1x12_S65536x12_0_1 : S1x12.BroadcastsInDim S65536x12 (![0, 1] : Fin 2 → Fin S65536x12.rank)
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  bcast_S6_S1x6_1 : S6.BroadcastsInDim S1x6 (![1] : Fin 1 → Fin S1x6.rank)
  bcast_S1x6_S65536x6_0_1 : S1x6.BroadcastsInDim S65536x6 (![0, 1] : Fin 2 → Fin S65536x6.rank)
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  dot_S65536x784_S784x12_S65536x12_1_0_0_1_n_n_wf : DotDims.WF S65536x784 S784x12 S65536x12 [1] [0] [0] [1] [] []
  dot_S65536x12_S12x10_S65536x10_1_0_0_1_n_n_wf : DotDims.WF S65536x12 S12x10 S65536x10 [1] [0] [0] [1] [] []
  dot_S65536x10_S10x8_S65536x8_1_0_0_1_n_n_wf : DotDims.WF S65536x10 S10x8 S65536x8 [1] [0] [0] [1] [] []
  dot_S65536x8_S8x6_S65536x6_1_0_0_1_n_n_wf : DotDims.WF S65536x8 S8x6 S65536x6 [1] [0] [0] [1] [] []
  dot_S65536x6_S6x4_S65536x4_1_0_0_1_n_n_wf : DotDims.WF S65536x6 S6x4 S65536x4 [1] [0] [0] [1] [] []
  dot_S65536x4_S4x10_S65536x10_1_0_0_1_n_n_wf : DotDims.WF S65536x4 S4x10 S65536x10 [1] [0] [0] [1] [] []

variable [Facts₀]

def dot_S65536x784_S784x12_S65536x12_1_0_0_1_n_n : DotDims S65536x784 S784x12 S65536x12 where
  lhsContracting := [1]
  rhsContracting := [0]
  lhsNonContracting := [0]
  rhsNonContracting := [1]
  lhsBatch := []
  rhsBatch := []
  wf := dot_S65536x784_S784x12_S65536x12_1_0_0_1_n_n_wf
def dot_S65536x12_S12x10_S65536x10_1_0_0_1_n_n : DotDims S65536x12 S12x10 S65536x10 where
  lhsContracting := [1]
  rhsContracting := [0]
  lhsNonContracting := [0]
  rhsNonContracting := [1]
  lhsBatch := []
  rhsBatch := []
  wf := dot_S65536x12_S12x10_S65536x10_1_0_0_1_n_n_wf
def dot_S65536x10_S10x8_S65536x8_1_0_0_1_n_n : DotDims S65536x10 S10x8 S65536x8 where
  lhsContracting := [1]
  rhsContracting := [0]
  lhsNonContracting := [0]
  rhsNonContracting := [1]
  lhsBatch := []
  rhsBatch := []
  wf := dot_S65536x10_S10x8_S65536x8_1_0_0_1_n_n_wf
def dot_S65536x8_S8x6_S65536x6_1_0_0_1_n_n : DotDims S65536x8 S8x6 S65536x6 where
  lhsContracting := [1]
  rhsContracting := [0]
  lhsNonContracting := [0]
  rhsNonContracting := [1]
  lhsBatch := []
  rhsBatch := []
  wf := dot_S65536x8_S8x6_S65536x6_1_0_0_1_n_n_wf
def dot_S65536x6_S6x4_S65536x4_1_0_0_1_n_n : DotDims S65536x6 S6x4 S65536x4 where
  lhsContracting := [1]
  rhsContracting := [0]
  lhsNonContracting := [0]
  rhsNonContracting := [1]
  lhsBatch := []
  rhsBatch := []
  wf := dot_S65536x6_S6x4_S65536x4_1_0_0_1_n_n_wf
def dot_S65536x4_S4x10_S65536x10_1_0_0_1_n_n : DotDims S65536x4 S4x10 S65536x10 where
  lhsContracting := [1]
  rhsContracting := [0]
  lhsNonContracting := [0]
  rhsNonContracting := [1]
  lhsBatch := []
  rhsBatch := []
  wf := dot_S65536x4_S4x10_S65536x10_1_0_0_1_n_n_wf

class Facts : Prop extends Facts₀ where

variable [Facts]
-- ==== Proof.LibDense.lean ====
/-
  Dense layers on the extended reals, general in the extents.

  A dense layer takes a table `h` of `A` rows and `K` columns, a weight table `W` of `K` rows and `N`
  columns and a bias row `b` of `N` entries, and gives the table whose entry in row `r`, column `j` is

      (∑ k, h r k · W k j) + b j        (`Dense.affine`),

  followed, in a hidden layer, by the hyperbolic tangent (`Dense.layer`). Row `r` of the result is computed
  from row `r` of `h` alone, so taking a slab of rows before the layer or after it is the same
  (`affine_rows`, `layer_rows`).

  Two spellings of such a layer are brought to this form. On the matrix unit: a product into a zero
  accumulator, plus the bias held as a `[1, N]` row broadcast down the rows (`matmul_affine`,
  `matmul_layer`). On the host: a `dot_general` contracting the left table's columns with the right table's
  rows, plus the bias vector broadcast first to a `[1, N]` row and then down the rows (`host_affine`,
  `host_layer`). Both contract ONE axis, so the sum over the contraction positions is a sum over `k : Fin K`
  (`contr_sum`), with the left factor at `(r, k)` and the right factor at `(k, j)`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-! ## The layer -/

/-- Entry `(r, j)` of `h · W + b`: the inner product of row `r` of `h` with column `j` of `W`, plus `b j`. -/
def pre {A K N : Nat} (h : (⟨2, ![A, K]⟩ : Shape).Idx → EReal) (W : (⟨2, ![K, N]⟩ : Shape).Idx → EReal)
    (b : (⟨1, ![N]⟩ : Shape).Idx → EReal) (r : Fin A) (j : Fin N) : EReal :=
  (∑ k : Fin K, h (ix2 r k) * W (ix2 k j)) + b (ix1 j)

/-- The table `h · W + b` (a layer with no activation). -/
def affine {A K N : Nat} (h : (⟨2, ![A, K]⟩ : Shape).Idx → EReal) (W : (⟨2, ![K, N]⟩ : Shape).Idx → EReal)
    (b : (⟨1, ![N]⟩ : Shape).Idx → EReal) : (⟨2, ![A, N]⟩ : Shape).Idx → EReal :=
  fun i => pre h W b (i 0) (i 1)

/-- The table `tanh (h · W + b)` (a hidden layer). -/
def layer {A K N : Nat} (h : (⟨2, ![A, K]⟩ : Shape).Idx → EReal) (W : (⟨2, ![K, N]⟩ : Shape).Idx → EReal)
    (b : (⟨1, ![N]⟩ : Shape).Idx → EReal) : (⟨2, ![A, N]⟩ : Shape).Idx → EReal :=
  fun i => Ideal.tanh (pre h W b (i 0) (i 1))

/-- The rows `ρ 0, ρ 1, …` of a table, as a table of their own. -/
def rows {A B K : Nat} (ρ : Fin A → Fin B) (h : (⟨2, ![B, K]⟩ : Shape).Idx → EReal) :
    (⟨2, ![A, K]⟩ : Shape).Idx → EReal :=
  fun i => h (ix2 (ρ (i 0)) (i 1))

/-- A layer's row `r` is computed from row `r` of its input: selecting rows before or after the layer is the same. -/
theorem affine_rows {A B K N : Nat} (ρ : Fin A → Fin B) (h : (⟨2, ![B, K]⟩ : Shape).Idx → EReal)
    (W : (⟨2, ![K, N]⟩ : Shape).Idx → EReal) (b : (⟨1, ![N]⟩ : Shape).Idx → EReal) :
    affine (rows ρ h) W b = rows ρ (affine h W b) := rfl

theorem layer_rows {A B K N : Nat} (ρ : Fin A → Fin B) (h : (⟨2, ![B, K]⟩ : Shape).Idx → EReal)
    (W : (⟨2, ![K, N]⟩ : Shape).Idx → EReal) (b : (⟨1, ![N]⟩ : Shape).Idx → EReal) :
    layer (rows ρ h) W b = rows ρ (layer h W b) := rfl

/-- The bias row of a `[1, N]` table. -/
def row0 {N : Nat} (b : (⟨2, ![1, N]⟩ : Shape).Idx → EReal) : (⟨1, ![N]⟩ : Shape).Idx → EReal :=
  fun j => b (ix2 (0 : Fin 1) (j 0))

/-- A vector recast as a `[1, N]` table has the vector as its row. -/
theorem row0_shapeCast {N : Nat} (b : (⟨1, ![N]⟩ : Shape).Idx → EReal)
    (h : (⟨1, ![N]⟩ : Shape).ShapeCasts ⟨2, ![1, N]⟩) : row0 (shapeCast ⟨2, ![1, N]⟩ b h) = b := by
  funext j
  obtain ⟨q, rfl⟩ : ∃ q : Fin N, j = ix1 q := ⟨j 0, eq_ix1 j⟩
  exact shapeCast_a_1a_apply b h 0 q

/-! ## One contracted axis: the contraction positions are `Fin K` -/

/-- The dimension numbers of a plain product `[A, K] × [K, N] → [A, N]`: the left table's columns are contracted
    with the right table's rows, and there is no batch axis. -/
abbrev plainDims {A K N : Nat}
    (wf : DotDims.WF (⟨2, ![A, K]⟩ : Shape) ⟨2, ![K, N]⟩ ⟨2, ![A, N]⟩ [1] [0] [0] [1] [] []) :
    DotDims ⟨2, ![A, K]⟩ ⟨2, ![K, N]⟩ ⟨2, ![A, N]⟩ where
  lhsContracting := [1]
  rhsContracting := [0]
  lhsNonContracting := [0]
  rhsNonContracting := [1]
  lhsBatch := []
  rhsBatch := []
  wf := wf

section Contr

variable {A K N : Nat} (wf : DotDims.WF (⟨2, ![A, K]⟩ : Shape) ⟨2, ![K, N]⟩ ⟨2, ![A, N]⟩ [1] [0] [0] [1] [] [])

/-- The left operand's index at output `(r, j)` and a contraction position: its row is `r`. -/
theorem lhs_row (i : (⟨2, ![A, N]⟩ : Shape).Idx) (q : (plainDims wf).contr.Idx) :
    ((plainDims wf).lhsIdx i q 0).val = (i 0).val := by
  unfold DotDims.lhsIdx
  have hb : ¬(0 : Fin (⟨2, ![A, K]⟩ : Shape).rank) ∈ (plainDims wf).lhsBatch := List.not_mem_nil
  have hn : (0 : Fin (⟨2, ![A, K]⟩ : Shape).rank) ∈ (plainDims wf).lhsNonContracting := List.mem_singleton.mpr rfl
  rw [dif_neg hb, dif_pos hn]
  rfl

/-- The right operand's index at output `(r, j)` and a contraction position: its column is `j`. -/
theorem rhs_col (i : (⟨2, ![A, N]⟩ : Shape).Idx) (q : (plainDims wf).contr.Idx) :
    ((plainDims wf).rhsIdx i q 1).val = (i 1).val := by
  unfold DotDims.rhsIdx
  have hb : ¬(1 : Fin (⟨2, ![K, N]⟩ : Shape).rank) ∈ (plainDims wf).rhsBatch := List.not_mem_nil
  have hn : (1 : Fin (⟨2, ![K, N]⟩ : Shape).rank) ∈ (plainDims wf).rhsNonContracting := List.mem_singleton.mpr rfl
  rw [dif_neg hb, dif_pos hn]
  rfl

/-- The sum over the contraction positions of a plain product is the sum over `k : Fin K` of the left factor at
    `(r, k)` times the right factor at `(k, j)`. -/
theorem contr_sum (l : (⟨2, ![A, K]⟩ : Shape).Idx → EReal) (r : (⟨2, ![K, N]⟩ : Shape).Idx → EReal)
    (i : (⟨2, ![A, N]⟩ : Shape).Idx) :
    ∑ q : (plainDims wf).contr.Idx, l ((plainDims wf).lhsIdx i q) * r ((plainDims wf).rhsIdx i q)
      = ∑ k : Fin K, l (ix2 (i 0) k) * r (ix2 k (i 1)) := by
  rw [← Equiv.sum_comp (contrEquiv1 (plainDims wf) K rfl rfl).symm]
  refine Finset.sum_congr rfl fun k _ => ?_
  have hk := contrEquiv1_symm_val (plainDims wf) K rfl rfl k
  have el : (plainDims wf).lhsIdx i ((contrEquiv1 (plainDims wf) K rfl rfl).symm k) = ix2 (i 0) k :=
    funext fun a => Fin.ext (by
      match a with
      | ⟨0, _⟩ => exact lhs_row wf _ _
      | ⟨1, _⟩ => exact ((plainDims wf).lhsIdx_val_of_single rfl _ _).trans hk)
  have er : (plainDims wf).rhsIdx i ((contrEquiv1 (plainDims wf) K rfl rfl).symm k) = ix2 k (i 1) :=
    funext fun a => Fin.ext (by
      match a with
      | ⟨0, _⟩ => exact ((plainDims wf).rhsIdx_val_of_single rfl _ _).trans hk
      | ⟨1, _⟩ => exact rhs_col wf _ _)
  rw [el, er]
  rfl

/-! ## The matrix unit's spelling -/

/-- A product into the zero accumulator, plus a `[1, N]` bias row broadcast down the rows. -/
theorem matmul_affine (hc : (⟨2, ![1, N]⟩ : Shape).ShapeCasts ⟨2, ![1, N]⟩)
    (hb : (⟨2, ![1, N]⟩ : Shape).Broadcasts ⟨2, ![A, N]⟩)
    (h : FVec Ideal ⟨2, ![A, K]⟩ .f32) (W : FVec Ideal ⟨2, ![K, N]⟩ .f32) (b : FVec Ideal ⟨2, ![1, N]⟩ .f32) :
    addf (matmul (plainDims wf) none h W (constant ⟨2, ![A, N]⟩ .f32 0x00000000#32))
        (broadcastTo ⟨2, ![A, N]⟩ (shapeCast ⟨2, ![1, N]⟩ b hc) hb)
      = affine h W (row0 b) := by
  funext i
  obtain ⟨p, q, rfl⟩ : ∃ (p : Fin A) (q : Fin N), i = ix2 p q := ⟨i 0, i 1, eq_ix2 i⟩
  show FloatOps.matmul (plainDims wf) none h W (constant ⟨2, ![A, N]⟩ .f32 0x00000000#32) (ix2 p q)
      + broadcastTo ⟨2, ![A, N]⟩ (shapeCast ⟨2, ![1, N]⟩ b hc) hb (ix2 p q) = _
  rw [shapeCast_self, broadcastTo_1b_ab_apply, Ideal.matmul_constant_zero_apply]
  exact congrArg (· + b (ix2 (0 : Fin 1) q)) (contr_sum wf h W (ix2 p q))

/-- The same under the hyperbolic tangent: a hidden layer. -/
theorem matmul_layer (hc : (⟨2, ![1, N]⟩ : Shape).ShapeCasts ⟨2, ![1, N]⟩)
    (hb : (⟨2, ![1, N]⟩ : Shape).Broadcasts ⟨2, ![A, N]⟩)
    (h : FVec Ideal ⟨2, ![A, K]⟩ .f32) (W : FVec Ideal ⟨2, ![K, N]⟩ .f32) (b : FVec Ideal ⟨2, ![1, N]⟩ .f32) :
    tanh (addf (matmul (plainDims wf) none h W (constant ⟨2, ![A, N]⟩ .f32 0x00000000#32))
        (broadcastTo ⟨2, ![A, N]⟩ (shapeCast ⟨2, ![1, N]⟩ b hc) hb))
      = layer h W (row0 b) := by
  rw [matmul_affine wf hc hb h W b]
  rfl

/-! ## The host's spelling -/

/-- A bias vector broadcast to a `[1, N]` row and then down the rows, read at `(p, q)`, is the vector at `q`. -/
theorem host_bias (hb1 : (⟨1, ![N]⟩ : Shape).BroadcastsInDim ⟨2, ![1, N]⟩ ![1])
    (hb2 : (⟨2, ![1, N]⟩ : Shape).BroadcastsInDim ⟨2, ![A, N]⟩ ![0, 1])
    (b : (⟨1, ![N]⟩ : Shape).Idx → EReal) (p : Fin A) (q : Fin N) :
    broadcastInDim ⟨2, ![A, N]⟩ ![0, 1] hb2 (broadcastInDim ⟨2, ![1, N]⟩ ![1] hb1 b) (ix2 p q) = b (ix1 q) := by
  refine (broadcastInDim_apply ![0, 1] hb2 _ (ix2 p q) (ix2 (0 : Fin 1) q) fun ax => ?_).trans
    (broadcastInDim_apply ![1] hb1 b (ix2 (0 : Fin 1) q) (ix1 q) fun ax => ?_)
  · match ax with
    | ⟨0, _⟩ => rfl
    | ⟨1, _⟩ =>
      show q.val = if N = 1 then 0 else q.val
      split
      · have := q.isLt; omega
      · rfl
  · match ax with
    | ⟨0, _⟩ =>
      show q.val = if N = 1 then 0 else q.val
      split
      · have := q.isLt; omega
      · rfl

/-- A `dot_general` of a plain product, plus the bias vector broadcast to a row and down the rows. -/
theorem host_affine (hb1 : (⟨1, ![N]⟩ : Shape).BroadcastsInDim ⟨2, ![1, N]⟩ ![1])
    (hb2 : (⟨2, ![1, N]⟩ : Shape).BroadcastsInDim ⟨2, ![A, N]⟩ ![0, 1])
    (h : FVec Ideal ⟨2, ![A, K]⟩ .f32) (W : FVec Ideal ⟨2, ![K, N]⟩ .f32) (b : FVec Ideal ⟨1, ![N]⟩ .f32) :
    addf (Host.dotGeneral (F := Ideal) (plainDims wf) none h W)
        (broadcastInDim ⟨2, ![A, N]⟩ ![0, 1] hb2 (broadcastInDim ⟨2, ![1, N]⟩ ![1] hb1 b))
      = affine h W b := by
  funext i
  obtain ⟨p, q, rfl⟩ : ∃ (p : Fin A) (q : Fin N), i = ix2 p q := ⟨i 0, i 1, eq_ix2 i⟩
  show FloatOps.dotGeneral (plainDims wf) none .single h W (ix2 p q)
      + broadcastInDim ⟨2, ![A, N]⟩ ![0, 1] hb2 (broadcastInDim ⟨2, ![1, N]⟩ ![1] hb1 b) (ix2 p q) = _
  rw [host_bias hb1 hb2 b p q, Ideal.dotGeneral_apply]
  exact congrArg (· + b (ix1 q)) (contr_sum wf h W (ix2 p q))

/-- The same under the host's hyperbolic tangent: a hidden layer. -/
theorem host_layer (hb1 : (⟨1, ![N]⟩ : Shape).BroadcastsInDim ⟨2, ![1, N]⟩ ![1])
    (hb2 : (⟨2, ![1, N]⟩ : Shape).BroadcastsInDim ⟨2, ![A, N]⟩ ![0, 1])
    (h : FVec Ideal ⟨2, ![A, K]⟩ .f32) (W : FVec Ideal ⟨2, ![K, N]⟩ .f32) (b : FVec Ideal ⟨1, ![N]⟩ .f32) :
    Host.tanh (F := Ideal) (addf (Host.dotGeneral (F := Ideal) (plainDims wf) none h W)
        (broadcastInDim ⟨2, ![A, N]⟩ ![0, 1] hb2 (broadcastInDim ⟨2, ![1, N]⟩ ![1] hb1 b)))
      = layer h W b := by
  rw [host_affine wf hb1 hb2 h W b]
  rfl

end Contr

end Cert.Dense

end
-- ==== Proof.Packed.lean ====
/-
  The packed table. The six results of the network — the logits (10 columns) and the five hidden activations
  (12, 10, 8, 6 and 4 columns) — are laid side by side in one table of 128 columns:

      columns  0 ..  9   the logits            columns 32 .. 39   the third hidden layer
      columns 10 .. 21   the first hidden layer columns 40 .. 45   the fourth
      columns 22 .. 31   the second             columns 46 .. 49   the fifth
      columns 50 .. 127  zero.

  Read at a column inside a strip the packed table is that strip's table at the column's position in the
  strip (`packAt_*`); cutting a strip out of the packed table by a slice along the columns gives the strip's
  table back (`slice_pack_*`); and the packed table of slabs of rows is the slab of the packed table
  (`pack_rows`).
-/
import Idealize.ShloMosaic.Lib.ValueLayout
import proofs.«109949_j36026185678951_2_alg».proof.Proof.LibDense

noncomputable section

namespace Cert.Packed

open Idealize.ShloMosaic Idealize.ShloMosaic.ValueIdx Cert.Dense

/-- A table of extended reals with `A` rows and `n` columns. -/
abbrev Tab (A n : Nat) : Type := (⟨2, ![A, n]⟩ : Shape).Idx → EReal

section
variable {A : Nat} (o : Tab A 10) (h1 : Tab A 12) (h2 : Tab A 10) (h3 : Tab A 8) (h4 : Tab A 6) (h5 : Tab A 4)

/-- The packed table at row `r`, column `c`. -/
def packAt (r : Fin A) (c : Fin 128) : EReal :=
  if c0 : c.val < 10 then o (ix2 r ⟨c.val, c0⟩)
  else if c1 : c.val < 22 then h1 (ix2 r ⟨c.val - 10, by omega⟩)
  else if c2 : c.val < 32 then h2 (ix2 r ⟨c.val - 22, by omega⟩)
  else if c3 : c.val < 40 then h3 (ix2 r ⟨c.val - 32, by omega⟩)
  else if c4 : c.val < 46 then h4 (ix2 r ⟨c.val - 40, by omega⟩)
  else if c5 : c.val < 50 then h5 (ix2 r ⟨c.val - 46, by omega⟩)
  else 0

/-- The packed table. -/
def pack : Tab A 128 := fun i => packAt o h1 h2 h3 h4 h5 (i 0) (i 1)

theorem pack_ix2 (r : Fin A) (c : Fin 128) : pack o h1 h2 h3 h4 h5 (ix2 r c) = packAt o h1 h2 h3 h4 h5 r c := rfl

/-! ## Reading inside each strip -/

theorem packAt_0 (r : Fin A) (c : Fin 128) (j : Fin 10) (hc : c.val = 0 + j.val) :
    packAt o h1 h2 h3 h4 h5 r c = o (ix2 r j) := by
  unfold packAt
  rw [dif_pos (by omega)]
  exact congrArg (fun q => o (ix2 r q)) (Fin.ext (by show c.val = j.val; omega))

theorem packAt_1 (r : Fin A) (c : Fin 128) (j : Fin 12) (hc : c.val = 10 + j.val) :
    packAt o h1 h2 h3 h4 h5 r c = h1 (ix2 r j) := by
  unfold packAt
  rw [dif_neg (by omega), dif_pos (by omega)]
  exact congrArg (fun q => h1 (ix2 r q)) (Fin.ext (by show c.val - 10 = j.val; omega))

theorem packAt_2 (r : Fin A) (c : Fin 128) (j : Fin 10) (hc : c.val = 22 + j.val) :
    packAt o h1 h2 h3 h4 h5 r c = h2 (ix2 r j) := by
  unfold packAt
  rw [dif_neg (by omega), dif_neg (by omega), dif_pos (by omega)]
  exact congrArg (fun q => h2 (ix2 r q)) (Fin.ext (by show c.val - 22 = j.val; omega))

theorem packAt_3 (r : Fin A) (c : Fin 128) (j : Fin 8) (hc : c.val = 32 + j.val) :
    packAt o h1 h2 h3 h4 h5 r c = h3 (ix2 r j) := by
  unfold packAt
  rw [dif_neg (by omega), dif_neg (by omega), dif_neg (by omega), dif_pos (by omega)]
  exact congrArg (fun q => h3 (ix2 r q)) (Fin.ext (by show c.val - 32 = j.val; omega))

theorem packAt_4 (r : Fin A) (c : Fin 128) (j : Fin 6) (hc : c.val = 40 + j.val) :
    packAt o h1 h2 h3 h4 h5 r c = h4 (ix2 r j) := by
  unfold packAt
  rw [dif_neg (by omega), dif_neg (by omega), dif_neg (by omega), dif_neg (by omega), dif_pos (by omega)]
  exact congrArg (fun q => h4 (ix2 r q)) (Fin.ext (by show c.val - 40 = j.val; omega))

theorem packAt_5 (r : Fin A) (c : Fin 128) (j : Fin 4) (hc : c.val = 46 + j.val) :
    packAt o h1 h2 h3 h4 h5 r c = h5 (ix2 r j) := by
  unfold packAt
  rw [dif_neg (by omega), dif_neg (by omega), dif_neg (by omega), dif_neg (by omega), dif_neg (by omega),
    dif_pos (by omega)]
  exact congrArg (fun q => h5 (ix2 r q)) (Fin.ext (by show c.val - 46 = j.val; omega))

theorem packAt_pad (r : Fin A) (c : Fin 128) (hc : 50 ≤ c.val) : packAt o h1 h2 h3 h4 h5 r c = 0 := by
  unfold packAt
  rw [dif_neg (by omega), dif_neg (by omega), dif_neg (by omega), dif_neg (by omega), dif_neg (by omega),
    dif_neg (by omega)]

/-! ## Cutting a strip back out -/

theorem slice_pack_0 (h : (⟨2, ![A, 128]⟩ : Shape).Slices ![0, 0] ⟨2, ![A, 10]⟩) :
    extractStridedSlice ⟨2, ![A, 10]⟩ ![0, 0] (pack o h1 h2 h3 h4 h5) h = o := by
  funext i
  obtain ⟨a, j, rfl⟩ : ∃ (a : Fin A) (j : Fin 10), i = ix2 a j := ⟨i 0, i 1, eq_ix2 i⟩
  exact (slice2_axis1_eq 0 _ h a j).trans (packAt_0 o h1 h2 h3 h4 h5 a _ j rfl)

theorem slice_pack_1 (h : (⟨2, ![A, 128]⟩ : Shape).Slices ![0, 10] ⟨2, ![A, 12]⟩) :
    extractStridedSlice ⟨2, ![A, 12]⟩ ![0, 10] (pack o h1 h2 h3 h4 h5) h = h1 := by
  funext i
  obtain ⟨a, j, rfl⟩ : ∃ (a : Fin A) (j : Fin 12), i = ix2 a j := ⟨i 0, i 1, eq_ix2 i⟩
  exact (slice2_axis1_eq 10 _ h a j).trans (packAt_1 o h1 h2 h3 h4 h5 a _ j rfl)

theorem slice_pack_2 (h : (⟨2, ![A, 128]⟩ : Shape).Slices ![0, 22] ⟨2, ![A, 10]⟩) :
    extractStridedSlice ⟨2, ![A, 10]⟩ ![0, 22] (pack o h1 h2 h3 h4 h5) h = h2 := by
  funext i
  obtain ⟨a, j, rfl⟩ : ∃ (a : Fin A) (j : Fin 10), i = ix2 a j := ⟨i 0, i 1, eq_ix2 i⟩
  exact (slice2_axis1_eq 22 _ h a j).trans (packAt_2 o h1 h2 h3 h4 h5 a _ j rfl)

theorem slice_pack_3 (h : (⟨2, ![A, 128]⟩ : Shape).Slices ![0, 32] ⟨2, ![A, 8]⟩) :
    extractStridedSlice ⟨2, ![A, 8]⟩ ![0, 32] (pack o h1 h2 h3 h4 h5) h = h3 := by
  funext i
  obtain ⟨a, j, rfl⟩ : ∃ (a : Fin A) (j : Fin 8), i = ix2 a j := ⟨i 0, i 1, eq_ix2 i⟩
  exact (slice2_axis1_eq 32 _ h a j).trans (packAt_3 o h1 h2 h3 h4 h5 a _ j rfl)

theorem slice_pack_4 (h : (⟨2, ![A, 128]⟩ : Shape).Slices ![0, 40] ⟨2, ![A, 6]⟩) :
    extractStridedSlice ⟨2, ![A, 6]⟩ ![0, 40] (pack o h1 h2 h3 h4 h5) h = h4 := by
  funext i
  obtain ⟨a, j, rfl⟩ : ∃ (a : Fin A) (j : Fin 6), i = ix2 a j := ⟨i 0, i 1, eq_ix2 i⟩
  exact (slice2_axis1_eq 40 _ h a j).trans (packAt_4 o h1 h2 h3 h4 h5 a _ j rfl)

theorem slice_pack_5 (h : (⟨2, ![A, 128]⟩ : Shape).Slices ![0, 46] ⟨2, ![A, 4]⟩) :
    extractStridedSlice ⟨2, ![A, 4]⟩ ![0, 46] (pack o h1 h2 h3 h4 h5) h = h5 := by
  funext i
  obtain ⟨a, j, rfl⟩ : ∃ (a : Fin A) (j : Fin 4), i = ix2 a j := ⟨i 0, i 1, eq_ix2 i⟩
  exact (slice2_axis1_eq 46 _ h a j).trans (packAt_5 o h1 h2 h3 h4 h5 a _ j rfl)

end

/-- Packing slabs of rows is the slab of the packed table. -/
theorem pack_rows {A B : Nat} (ρ : Fin A → Fin B) (o : Tab B 10) (h1 : Tab B 12) (h2 : Tab B 10) (h3 : Tab B 8)
    (h4 : Tab B 6) (h5 : Tab B 4) :
    pack (rows ρ o) (rows ρ h1) (rows ρ h2) (rows ρ h3) (rows ρ h4) (rows ρ h5)
      = rows ρ (pack o h1 h2 h3 h4 h5) := rfl

end Cert.Packed

end
-- ==== Proof.Network.lean ====
/-
  The network. Its parameters are six weight tables and six bias vectors; on a table `x` of `A` rows and 784
  columns it computes, row by row,

      h₁ = tanh (x · W₁ + b₁),  h₂ = tanh (h₁ · W₂ + b₂),  …,  h₅ = tanh (h₄ · W₅ + b₅),  out = h₅ · W₆ + b₆,

  of widths 12, 10, 8, 6, 4 and 10. `Net.packed` lays the six results side by side in 128 columns. Every one of
  them is computed row by row, so on a slab of the rows of `x` each gives the same slab of its value on all of
  `x` (`*_rows`).
-/
import proofs.«109949_j36026185678951_2_alg».proof.Proof.Packed

noncomputable section

namespace Cert.Net

open Idealize.ShloMosaic Idealize.ShloMosaic.ValueIdx Cert.Dense Cert.Packed

/-- A vector of `n` extended reals. -/
abbrev Row (n : Nat) : Type := (⟨1, ![n]⟩ : Shape).Idx → EReal

/-- The network's parameters. -/
structure Params where
  W1 : Tab 784 12
  b1 : Row 12
  W2 : Tab 12 10
  b2 : Row 10
  W3 : Tab 10 8
  b3 : Row 8
  W4 : Tab 8 6
  b4 : Row 6
  W5 : Tab 6 4
  b5 : Row 4
  W6 : Tab 4 10
  b6 : Row 10

variable {A : Nat} (P : Params) (x : Tab A 784)

def hid1 : Tab A 12 := layer x P.W1 P.b1
def hid2 : Tab A 10 := layer (hid1 P x) P.W2 P.b2
def hid3 : Tab A 8 := layer (hid2 P x) P.W3 P.b3
def hid4 : Tab A 6 := layer (hid3 P x) P.W4 P.b4
def hid5 : Tab A 4 := layer (hid4 P x) P.W5 P.b5
def logits : Tab A 10 := affine (hid5 P x) P.W6 P.b6

/-- The six results side by side: the logits, then the hidden activations in order, then zeros. -/
def packed : Tab A 128 := pack (logits P x) (hid1 P x) (hid2 P x) (hid3 P x) (hid4 P x) (hid5 P x)

/-- On a slab of the rows of `x` the packed result is the same slab of the packed result on all of `x`. -/
theorem packed_rows {B : Nat} (ρ : Fin A → Fin B) (x : Tab B 784) : packed P (rows ρ x) = rows ρ (packed P x) := rfl

end Cert.Net

end
-- ==== Proof.KernelBlock.lean ====
/-
  What one grid step leaves in its block of the packed output.

  The body loads a slab `x₀` of 2048 rows of the input, the six weight tables, and the six biases held as
  `[1, n]` rows; it computes the five hidden layers and the logits, and stores them as column strips of a
  2048 × 128 block — the logits at columns 0–9, the hidden layers at 10–21, 22–31, 32–39, 40–45 and 46–49 —
  and zeros at columns 50–127. Each stored value is one of the network's functions of the loaded blocks
  (`pay_*`); a strip's value at a local index is the packed table at the index the strip's rectangle sends it
  to (`strip_*`); so the seven stores, read back as one block, are the packed table of the slab (`block_eq`).
-/
import proofs.«109949_j36026185678951_2_alg».proof.Proof.Gen.KernelIdeal.Frame
import proofs.«109949_j36026185678951_2_alg».proof.Proof.Network

set_option maxRecDepth 16384

noncomputable section

namespace Cert.KernelIdeal.Block

open Idealize.ShloMosaic Idealize.ShloMosaic.TcCoe Idealize.ShloMosaic.Tactic Idealize.ShloMosaic.ValueIdx
open Idealize.SL Idealize.SL.Sem
open Cert.KernelIdeal Cert.KernelIdeal.Gen
open Cert.Dense Cert.Packed Cert.Net

/-- The parameters as the body loads them: each bias is the row of a `[1, n]` table. -/
def params (x1 : Tab 784 12) (x2 : Tab 1 12) (x3 : Tab 12 10) (x4 : Tab 1 10) (x5 : Tab 10 8) (x6 : Tab 1 8)
    (x7 : Tab 8 6) (x8 : Tab 1 6) (x9 : Tab 6 4) (x10 : Tab 1 4) (x11 : Tab 4 10) (x12 : Tab 1 10) : Params :=
  ⟨x1, row0 x2, x3, row0 x4, x5, row0 x6, x7, row0 x8, x9, row0 x10, x11, row0 x12⟩

/-! ## The stored values are the network's functions of the loaded blocks -/

section Pay
variable (x0 : Tab 2048 784) (x1 : Tab 784 12) (x2 : Tab 1 12) (x3 : Tab 12 10) (x4 : Tab 1 10) (x5 : Tab 10 8)
  (x6 : Tab 1 8) (x7 : Tab 8 6) (x8 : Tab 1 6) (x9 : Tab 6 4) (x10 : Tab 1 4) (x11 : Tab 4 10) (x12 : Tab 1 10)

local notation "P" => params x1 x2 x3 x4 x5 x6 x7 x8 x9 x10 x11 x12

theorem pay_hid1 : k0_pay4 (F := Ideal) x0 x1 x2 = hid1 P x0 :=
  matmul_layer dot_S2048x784_S784x12_S2048x12_1_0_0_1_n_n_wf shapeCasts_S1x12_S1x12 broadcasts_S1x12_S2048x12 x0 x1 x2

theorem pay_hid2 : k0_pay5 (F := Ideal) x0 x1 x2 x3 x4 = hid2 P x0 :=
  (matmul_layer dot_S2048x12_S12x10_S2048x10_1_0_0_1_n_n_wf shapeCasts_S1x10_S1x10 broadcasts_S1x10_S2048x10
    (k0_pay4 (F := Ideal) x0 x1 x2) x3 x4).trans
    (congrArg (fun h => layer h x3 (row0 x4)) (pay_hid1 x0 x1 x2 x3 x4 x5 x6 x7 x8 x9 x10 x11 x12))

theorem pay_hid3 : k0_pay6 (F := Ideal) x0 x1 x2 x3 x4 x5 x6 = hid3 P x0 :=
  (matmul_layer dot_S2048x10_S10x8_S2048x8_1_0_0_1_n_n_wf shapeCasts_S1x8_S1x8 broadcasts_S1x8_S2048x8
    (k0_pay5 (F := Ideal) x0 x1 x2 x3 x4) x5 x6).trans
    (congrArg (fun h => layer h x5 (row0 x6)) (pay_hid2 x0 x1 x2 x3 x4 x5 x6 x7 x8 x9 x10 x11 x12))

theorem pay_hid4 : k0_pay7 (F := Ideal) x0 x1 x2 x3 x4 x5 x6 x7 x8 = hid4 P x0 :=
  (matmul_layer dot_S2048x8_S8x6_S2048x6_1_0_0_1_n_n_wf shapeCasts_S1x6_S1x6 broadcasts_S1x6_S2048x6
    (k0_pay6 (F := Ideal) x0 x1 x2 x3 x4 x5 x6) x7 x8).trans
    (congrArg (fun h => layer h x7 (row0 x8)) (pay_hid3 x0 x1 x2 x3 x4 x5 x6 x7 x8 x9 x10 x11 x12))

/-- The fifth layer's value is held in two parts: its product, and then its bias and activation over that product. -/
theorem pay_hid5 : k0_pay1 (F := Ideal) (k0_pay8 (F := Ideal) x0 x1 x2 x3 x4 x5 x6 x7 x8 x9) x10 = hid5 P x0 :=
  (matmul_layer dot_S2048x6_S6x4_S2048x4_1_0_0_1_n_n_wf shapeCasts_S1x4_S1x4 broadcasts_S1x4_S2048x4
    (k0_pay7 (F := Ideal) x0 x1 x2 x3 x4 x5 x6 x7 x8) x9 x10).trans
    (congrArg (fun h => layer h x9 (row0 x10)) (pay_hid4 x0 x1 x2 x3 x4 x5 x6 x7 x8 x9 x10 x11 x12))

theorem pay_logits :
    k0_pay2 (F := Ideal) (k0_pay8 (F := Ideal) x0 x1 x2 x3 x4 x5 x6 x7 x8 x9) x10 x11 x12 = logits P x0 :=
  (matmul_affine dot_S2048x4_S4x10_S2048x10_1_0_0_1_n_n_wf shapeCasts_S1x10_S1x10 broadcasts_S1x10_S2048x10
    (k0_pay1 (F := Ideal) (k0_pay8 (F := Ideal) x0 x1 x2 x3 x4 x5 x6 x7 x8 x9) x10) x11 x12).trans
    (congrArg (fun h => affine h x11 (row0 x12)) (pay_hid5 x0 x1 x2 x3 x4 x5 x6 x7 x8 x9 x10 x11 x12))

/-- The padding is the zero word. -/
theorem pay_pad (y : S2048x78.Idx) : k0_pay3 (F := Ideal) y = 0 := Ideal.ofBits_zero_f32

end Pay

/-! ## A column strip's local index, placed in the block -/

/-- The strip of `w` columns from column `off` sends its local index `(p, q)` to `(p, off + q)`. -/
theorem strip_emb (off w : Nat) (inb : ∀ a, (![0, off] : Fin 2 → Nat) a + (![2048, w] : Fin 2 → Nat) a ≤ S2048x128.size a)
    (p : Fin 2048) (q : Fin w) (hc : off + q.val < 128) :
    (Rect.unit (s := S2048x128) ![0, off] ![2048, w] inb).emb (ix2 p q) = ix2 p (⟨off + q.val, hc⟩ : Fin 128) :=
  funext fun a => Fin.ext (by
    match a with
    | ⟨0, _⟩ => show 0 + 1 * p.val = p.val; omega
    | ⟨1, _⟩ => show off + 1 * q.val = off + q.val; omega)

section Strips
variable (Q : Params) (x0 : Tab 2048 784)

theorem strip_logits (f : Tab 2048 10) (hf : f = logits Q x0) (inb)
    (x : (Rect.unit (s := S2048x128) ![0, 0] ![2048, 10] inb).shape.Idx) :
    f x = packed Q x0 ((Rect.unit (s := S2048x128) ![0, 0] ![2048, 10] inb).emb x) := by
  obtain ⟨p, q, rfl⟩ : ∃ (p : Fin 2048) (q : Fin 10), x = ix2 p q := ⟨x 0, x 1, eq_ix2 x⟩
  have hq := q.isLt
  rw [strip_emb 0 10 inb p q (by omega), hf]
  exact (packAt_0 _ _ _ _ _ _ p _ q rfl).symm

theorem strip_hid1 (f : Tab 2048 12) (hf : f = hid1 Q x0) (inb)
    (x : (Rect.unit (s := S2048x128) ![0, 10] ![2048, 12] inb).shape.Idx) :
    f x = packed Q x0 ((Rect.unit (s := S2048x128) ![0, 10] ![2048, 12] inb).emb x) := by
  obtain ⟨p, q, rfl⟩ : ∃ (p : Fin 2048) (q : Fin 12), x = ix2 p q := ⟨x 0, x 1, eq_ix2 x⟩
  have hq := q.isLt
  rw [strip_emb 10 12 inb p q (by omega), hf]
  exact (packAt_1 _ _ _ _ _ _ p _ q rfl).symm

theorem strip_hid2 (f : Tab 2048 10) (hf : f = hid2 Q x0) (inb)
    (x : (Rect.unit (s := S2048x128) ![0, 22] ![2048, 10] inb).shape.Idx) :
    f x = packed Q x0 ((Rect.unit (s := S2048x128) ![0, 22] ![2048, 10] inb).emb x) := by
  obtain ⟨p, q, rfl⟩ : ∃ (p : Fin 2048) (q : Fin 10), x = ix2 p q := ⟨x 0, x 1, eq_ix2 x⟩
  have hq := q.isLt
  rw [strip_emb 22 10 inb p q (by omega), hf]
  exact (packAt_2 _ _ _ _ _ _ p _ q rfl).symm

theorem strip_hid3 (f : Tab 2048 8) (hf : f = hid3 Q x0) (inb)
    (x : (Rect.unit (s := S2048x128) ![0, 32] ![2048, 8] inb).shape.Idx) :
    f x = packed Q x0 ((Rect.unit (s := S2048x128) ![0, 32] ![2048, 8] inb).emb x) := by
  obtain ⟨p, q, rfl⟩ : ∃ (p : Fin 2048) (q : Fin 8), x = ix2 p q := ⟨x 0, x 1, eq_ix2 x⟩
  have hq := q.isLt
  rw [strip_emb 32 8 inb p q (by omega), hf]
  exact (packAt_3 _ _ _ _ _ _ p _ q rfl).symm

theorem strip_hid4 (f : Tab 2048 6) (hf : f = hid4 Q x0) (inb)
    (x : (Rect.unit (s := S2048x128) ![0, 40] ![2048, 6] inb).shape.Idx) :
    f x = packed Q x0 ((Rect.unit (s := S2048x128) ![0, 40] ![2048, 6] inb).emb x) := by
  obtain ⟨p, q, rfl⟩ : ∃ (p : Fin 2048) (q : Fin 6), x = ix2 p q := ⟨x 0, x 1, eq_ix2 x⟩
  have hq := q.isLt
  rw [strip_emb 40 6 inb p q (by omega), hf]
  exact (packAt_4 _ _ _ _ _ _ p _ q rfl).symm

theorem strip_hid5 (f : Tab 2048 4) (hf : f = hid5 Q x0) (inb)
    (x : (Rect.unit (s := S2048x128) ![0, 46] ![2048, 4] inb).shape.Idx) :
    f x = packed Q x0 ((Rect.unit (s := S2048x128) ![0, 46] ![2048, 4] inb).emb x) := by
  obtain ⟨p, q, rfl⟩ : ∃ (p : Fin 2048) (q : Fin 4), x = ix2 p q := ⟨x 0, x 1, eq_ix2 x⟩
  have hq := q.isLt
  rw [strip_emb 46 4 inb p q (by omega), hf]
  exact (packAt_5 _ _ _ _ _ _ p _ q rfl).symm

theorem strip_pad (f : Tab 2048 78) (hf : ∀ y, f y = 0) (inb)
    (x : (Rect.unit (s := S2048x128) ![0, 50] ![2048, 78] inb).shape.Idx) :
    f x = packed Q x0 ((Rect.unit (s := S2048x128) ![0, 50] ![2048, 78] inb).emb x) := by
  obtain ⟨p, q, rfl⟩ : ∃ (p : Fin 2048) (q : Fin 78), x = ix2 p q := ⟨x 0, x 1, eq_ix2 x⟩
  have hq := q.isLt
  rw [strip_emb 50 78 inb p q (by omega), hf]
  exact (packAt_pad _ _ _ _ _ _ p _ (by show 50 ≤ 50 + q.val; omega)).symm

end Strips

/-! ## The seven stores, read back as one block -/

theorem hz : (![0, 0] : Fin 2 → Nat) = fun _ => 0 := funext fun a => by fin_cases a <;> rfl

/-- What the body leaves in the output's staging buffer is the packed table of the loaded slab. -/
theorem block_eq (c : Dev nD) (i : grid0.Coords) (arg1 : Memref sig .tc .vmem S2048x784 .f32) (harg1 : arg1.IsWhole) (arg2 : Memref sig .tc .vmem S784x12 .f32) (harg2 : arg2.IsWhole) (arg3 : Memref sig .tc .vmem S1x12 .f32) (harg3 : arg3.IsWhole) (arg4 : Memref sig .tc .vmem S12x10 .f32) (harg4 : arg4.IsWhole) (arg5 : Memref sig .tc .vmem S1x10 .f32) (harg5 : arg5.IsWhole) (arg6 : Memref sig .tc .vmem S10x8 .f32) (harg6 : arg6.IsWhole) (arg7 : Memref sig .tc .vmem S1x8 .f32) (harg7 : arg7.IsWhole) (arg8 : Memref sig .tc .vmem S8x6 .f32) (harg8 : arg8.IsWhole) (arg9 : Memref sig .tc .vmem S1x6 .f32) (harg9 : arg9.IsWhole) (arg10 : Memref sig .tc .vmem S6x4 .f32) (harg10 : arg10.IsWhole) (arg11 : Memref sig .tc .vmem S1x4 .f32) (harg11 : arg11.IsWhole) (arg12 : Memref sig .tc .vmem S4x10 .f32) (harg12 : arg12.IsWhole) (arg13 : Memref sig .tc .vmem S1x10 .f32) (harg13 : arg13.IsWhole) (arg14 : Memref sig .tc .vmem S2048x128 .f32) (harg14 : arg14.IsWhole)
    (x0 : Vec Ideal S2048x784 .f32) (x1 : Vec Ideal S784x12 .f32) (x2 : Vec Ideal S1x12 .f32) (x3 : Vec Ideal S12x10 .f32) (x4 : Vec Ideal S1x10 .f32) (x5 : Vec Ideal S10x8 .f32) (x6 : Vec Ideal S1x8 .f32) (x7 : Vec Ideal S8x6 .f32) (x8 : Vec Ideal S1x6 .f32) (x9 : Vec Ideal S6x4 .f32) (x10 : Vec Ideal S1x4 .f32) (x11 : Vec Ideal S4x10 .f32) (x12 : Vec Ideal S1x10 .f32) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12
      = packed (params x1 x2 x3 x4 x5 x6 x7 x8 x9 x10 x11 x12) x0 := by
  funext y
  unfold out0_A_13
  rw [View.read_writes_eq_canon _ _ _ (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12)]
  refine View.canon_apply_of_pieces (packed (params x1 x2 x3 x4 x5 x6 x7 x8 x9 x10 x11 x12) x0) _ ?_ y
    (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 y)
  unfold kernelRun0_A
  dsimp only
  sl_unfold_words
  simp only [View.readAt_eq_ld, harg1.read_unread, harg2.read_unread, harg3.read_unread, harg4.read_unread,
    harg5.read_unread, harg6.read_unread, harg7.read_unread, harg8.read_unread, harg9.read_unread, harg10.read_unread,
    harg11.read_unread, harg12.read_unread, harg13.read_unread,
    View.ld_unit_zero (S := S2048x784) hz, View.ld_unit_zero (S := S784x12) hz, View.ld_unit_zero (S := S1x12) hz,
    View.ld_unit_zero (S := S12x10) hz, View.ld_unit_zero (S := S1x10) hz, View.ld_unit_zero (S := S10x8) hz,
    View.ld_unit_zero (S := S1x8) hz, View.ld_unit_zero (S := S8x6) hz, View.ld_unit_zero (S := S1x6) hz,
    View.ld_unit_zero (S := S6x4) hz, View.ld_unit_zero (S := S1x4) hz, View.ld_unit_zero (S := S4x10) hz]
  intro p hp x
  simp only [List.mem_cons, List.mem_nil_iff, or_false] at hp
  rcases hp with rfl | rfl | rfl | rfl | rfl | rfl | rfl
  · exact strip_pad _ x0 _ pay_pad inb_S2048x128_S2048x78_0_50 x
  · exact strip_hid5 _ x0 _ (pay_hid5 x0 x1 x2 x3 x4 x5 x6 x7 x8 x9 x10 x11 x12) inb_S2048x128_S2048x4_0_46 x
  · exact strip_hid4 _ x0 _ (pay_hid4 x0 x1 x2 x3 x4 x5 x6 x7 x8 x9 x10 x11 x12) inb_S2048x128_S2048x6_0_40 x
  · exact strip_hid3 _ x0 _ (pay_hid3 x0 x1 x2 x3 x4 x5 x6 x7 x8 x9 x10 x11 x12) inb_S2048x128_S2048x8_0_32 x
  · exact strip_hid2 _ x0 _ (pay_hid2 x0 x1 x2 x3 x4 x5 x6 x7 x8 x9 x10 x11 x12) inb_S2048x128_S2048x10_0_22 x
  · exact strip_hid1 _ x0 _ (pay_hid1 x0 x1 x2 x3 x4 x5 x6 x7 x8 x9 x10 x11 x12) inb_S2048x128_S2048x12_0_10 x
  · exact strip_logits _ x0 _ (pay_logits x0 x1 x2 x3 x4 x5 x6 x7 x8 x9 x10 x11 x12) inb_S2048x128_S2048x10_0_0 x

end Cert.KernelIdeal.Block

end
-- ==== Proof.KernelSlab.lean ====
/-
  From one grid step to the whole packed array.

  The 32 grid steps cut the 65536 rows into slabs of 2048: step `t` reads rows `2048 t … 2048 t + 2047` of the
  input and writes the same rows of the packed output; every other operand — the six weight tables, and the six
  biases, which the host has recast from vectors to one-row tables before the call — is read whole at every step.
  A layer's row depends on the same row of its input only, so the block a step writes back is that slab of the
  packed table of the WHOLE input (`flushed_eq`); the 32 slabs tile the array, so after the region the packed
  array is the packed table of the whole input (`final`).
-/
import proofs.«109949_j36026185678951_2_alg».proof.Proof.KernelBlock
import Idealize.ShloMosaic.Lib.Pipeline.Value
import Idealize.ShloMosaic.Lib.StableHlo.Run

set_option maxRecDepth 16384

noncomputable section

namespace Cert.KernelIdeal.Whole

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Block
open Cert.Dense Cert.Packed Cert.Net

variable (m : (ℓ : Loc nD τ sig) → Buf (Elt Ideal) ℓ) (ρ : Dev nD → PrngReg)

/-- The network's parameters, read off the argument arrays. -/
def paramsOf (c : Dev nD) : Params :=
  ⟨m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12)⟩

/-- The slab of 2048 rows that grid step `n` works on: rows `2048 n` to `2048 n + 2047`. -/
def slab (n : Nat) (p : Fin 2048) : Fin 65536 :=
  ⟨(n % 32) * 2048 + p.val, by have := p.isLt; have := Nat.mod_lt n (show 0 < 32 by decide); omega⟩

/-- The printed index maps, decided over the grid: the input's and the output's block follow the grid step along the
    rows; every other window's block is the whole of its array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = t.val ∧ win0_13.index t (1 : Fin 2) = 0 :=
  (by decide +kernel : ∀ t : Fin grid0.N, _)

theorem lt_N (t : Fin cfg0.N) : t.val < 32 := Nat.lt_of_lt_of_eq t.isLt N_0

/-! ## The blocks a grid step reads -/

/-- The input window's block at a grid step is that step's slab of the input. -/
theorem iblk_0 (c : Dev nD) (t : Fin cfg0.N) : (iblk m c 0 t : Tab 2048 784) = rows (slab t.val) (V m c main_arg0) := by
  funext j
  show V m c main_arg0 (((cfg0.win 0).blk t).view.emb j) = V m c main_arg0 (ix2 (slab t.val (j 0)) (j 1))
  refine congrArg (V m c main_arg0) (funext fun a => Fin.ext ?_)
  have h := idx_facts t
  have ht := lt_N t
  match a with
  | ⟨0, _⟩ => show win0_0.index t (0 : Fin 2) * 2048 + 1 * (j 0).val = (t.val % 32) * 2048 + (j 0).val; omega
  | ⟨1, _⟩ => show win0_0.index t (1 : Fin 2) * 784 + 1 * (j 1).val = (j 1).val; omega

/-- Every other window's block is at block index `(0, 0)` and as large as its array: it is the whole array. -/
theorem iblk_1 (c : Dev nD) (t : Fin cfg0.N) : (iblk m c 1 t : Tab 784 12) = V m c main_arg1 := by
  funext j
  show V m c main_arg1 (((cfg0.win 1).blk t).view.emb j) = V m c main_arg1 j
  refine congrArg (V m c main_arg1) (funext fun a => Fin.ext ?_)
  have h := idx_facts t
  match a with
  | ⟨0, _⟩ => show win0_1.index t (0 : Fin 2) * 784 + 1 * (j 0).val = (j 0).val; omega
  | ⟨1, _⟩ => show win0_1.index t (1 : Fin 2) * 12 + 1 * (j 1).val = (j 1).val; omega

theorem iblk_2 (c : Dev nD) (t : Fin cfg0.N) : (iblk m c 2 t : Tab 1 12) = V m c main_v0 := by
  funext j
  show V m c main_v0 (((cfg0.win 2).blk t).view.emb j) = V m c main_v0 j
  refine congrArg (V m c main_v0) (funext fun a => Fin.ext ?_)
  have h := idx_facts t
  match a with
  | ⟨0, _⟩ => show win0_2.index t (0 : Fin 2) * 1 + 1 * (j 0).val = (j 0).val; omega
  | ⟨1, _⟩ => show win0_2.index t (1 : Fin 2) * 12 + 1 * (j 1).val = (j 1).val; omega

theorem iblk_3 (c : Dev nD) (t : Fin cfg0.N) : (iblk m c 3 t : Tab 12 10) = V m c main_arg3 := by
  funext j
  show V m c main_arg3 (((cfg0.win 3).blk t).view.emb j) = V m c main_arg3 j
  refine congrArg (V m c main_arg3) (funext fun a => Fin.ext ?_)
  have h := idx_facts t
  match a with
  | ⟨0, _⟩ => show win0_3.index t (0 : Fin 2) * 12 + 1 * (j 0).val = (j 0).val; omega
  | ⟨1, _⟩ => show win0_3.index t (1 : Fin 2) * 10 + 1 * (j 1).val = (j 1).val; omega

theorem iblk_4 (c : Dev nD) (t : Fin cfg0.N) : (iblk m c 4 t : Tab 1 10) = V m c main_v1 := by
  funext j
  show V m c main_v1 (((cfg0.win 4).blk t).view.emb j) = V m c main_v1 j
  refine congrArg (V m c main_v1) (funext fun a => Fin.ext ?_)
  have h := idx_facts t
  match a with
  | ⟨0, _⟩ => show win0_4.index t (0 : Fin 2) * 1 + 1 * (j 0).val = (j 0).val; omega
  | ⟨1, _⟩ => show win0_4.index t (1 : Fin 2) * 10 + 1 * (j 1).val = (j 1).val; omega

theorem iblk_5 (c : Dev nD) (t : Fin cfg0.N) : (iblk m c 5 t : Tab 10 8) = V m c main_arg5 := by
  funext j
  show V m c main_arg5 (((cfg0.win 5).blk t).view.emb j) = V m c main_arg5 j
  refine congrArg (V m c main_arg5) (funext fun a => Fin.ext ?_)
  have h := idx_facts t
  match a with
  | ⟨0, _⟩ => show win0_5.index t (0 : Fin 2) * 10 + 1 * (j 0).val = (j 0).val; omega
  | ⟨1, _⟩ => show win0_5.index t (1 : Fin 2) * 8 + 1 * (j 1).val = (j 1).val; omega

theorem iblk_6 (c : Dev nD) (t : Fin cfg0.N) : (iblk m c 6 t : Tab 1 8) = V m c main_v2 := by
  funext j
  show V m c main_v2 (((cfg0.win 6).blk t).view.emb j) = V m c main_v2 j
  refine congrArg (V m c main_v2) (funext fun a => Fin.ext ?_)
  have h := idx_facts t
  match a with
  | ⟨0, _⟩ => show win0_6.index t (0 : Fin 2) * 1 + 1 * (j 0).val = (j 0).val; omega
  | ⟨1, _⟩ => show win0_6.index t (1 : Fin 2) * 8 + 1 * (j 1).val = (j 1).val; omega

theorem iblk_7 (c : Dev nD) (t : Fin cfg0.N) : (iblk m c 7 t : Tab 8 6) = V m c main_arg7 := by
  funext j
  show V m c main_arg7 (((cfg0.win 7).blk t).view.emb j) = V m c main_arg7 j
  refine congrArg (V m c main_arg7) (funext fun a => Fin.ext ?_)
  have h := idx_facts t
  match a with
  | ⟨0, _⟩ => show win0_7.index t (0 : Fin 2) * 8 + 1 * (j 0).val = (j 0).val; omega
  | ⟨1, _⟩ => show win0_7.index t (1 : Fin 2) * 6 + 1 * (j 1).val = (j 1).val; omega

theorem iblk_8 (c : Dev nD) (t : Fin cfg0.N) : (iblk m c 8 t : Tab 1 6) = V m c main_v3 := by
  funext j
  show V m c main_v3 (((cfg0.win 8).blk t).view.emb j) = V m c main_v3 j
  refine congrArg (V m c main_v3) (funext fun a => Fin.ext ?_)
  have h := idx_facts t
  match a with
  | ⟨0, _⟩ => show win0_8.index t (0 : Fin 2) * 1 + 1 * (j 0).val = (j 0).val; omega
  | ⟨1, _⟩ => show win0_8.index t (1 : Fin 2) * 6 + 1 * (j 1).val = (j 1).val; omega

theorem iblk_9 (c : Dev nD) (t : Fin cfg0.N) : (iblk m c 9 t : Tab 6 4) = V m c main_arg9 := by
  funext j
  show V m c main_arg9 (((cfg0.win 9).blk t).view.emb j) = V m c main_arg9 j
  refine congrArg (V m c main_arg9) (funext fun a => Fin.ext ?_)
  have h := idx_facts t
  match a with
  | ⟨0, _⟩ => show win0_9.index t (0 : Fin 2) * 6 + 1 * (j 0).val = (j 0).val; omega
  | ⟨1, _⟩ => show win0_9.index t (1 : Fin 2) * 4 + 1 * (j 1).val = (j 1).val; omega

theorem iblk_10 (c : Dev nD) (t : Fin cfg0.N) : (iblk m c 10 t : Tab 1 4) = V m c main_v4 := by
  funext j
  show V m c main_v4 (((cfg0.win 10).blk t).view.emb j) = V m c main_v4 j
  refine congrArg (V m c main_v4) (funext fun a => Fin.ext ?_)
  have h := idx_facts t
  match a with
  | ⟨0, _⟩ => show win0_10.index t (0 : Fin 2) * 1 + 1 * (j 0).val = (j 0).val; omega
  | ⟨1, _⟩ => show win0_10.index t (1 : Fin 2) * 4 + 1 * (j 1).val = (j 1).val; omega

theorem iblk_11 (c : Dev nD) (t : Fin cfg0.N) : (iblk m c 11 t : Tab 4 10) = V m c main_arg11 := by
  funext j
  show V m c main_arg11 (((cfg0.win 11).blk t).view.emb j) = V m c main_arg11 j
  refine congrArg (V m c main_arg11) (funext fun a => Fin.ext ?_)
  have h := idx_facts t
  match a with
  | ⟨0, _⟩ => show win0_11.index t (0 : Fin 2) * 4 + 1 * (j 0).val = (j 0).val; omega
  | ⟨1, _⟩ => show win0_11.index t (1 : Fin 2) * 10 + 1 * (j 1).val = (j 1).val; omega

theorem iblk_12 (c : Dev nD) (t : Fin cfg0.N) : (iblk m c 12 t : Tab 1 10) = V m c main_v5 := by
  funext j
  show V m c main_v5 (((cfg0.win 12).blk t).view.emb j) = V m c main_v5 j
  refine congrArg (V m c main_v5) (funext fun a => Fin.ext ?_)
  have h := idx_facts t
  match a with
  | ⟨0, _⟩ => show win0_12.index t (0 : Fin 2) * 1 + 1 * (j 0).val = (j 0).val; omega
  | ⟨1, _⟩ => show win0_12.index t (1 : Fin 2) * 10 + 1 * (j 1).val = (j 1).val; omega

/-! ## The biases as the region finds them: each a vector recast as a one-row table -/

theorem bias_0 (c : Dev nD) : row0 (V m c main_v0 : Tab 1 12) = m ((c : Thread nD τ).loc main_arg2) := by
  have e : (V m c main_v0 : S1x12.Idx → EReal)
      = shapeCast S1x12 (m ((c : Thread nD τ).loc main_arg2)) shapeCasts_S12_S1x12 := by
    show StableHlo.after hostOps0 (fun b => m (c, b)) (Proc.devRef .tc main_v0) = _
    after_results
    rfl
  rw [e]
  exact row0_shapeCast _ _

theorem bias_1 (c : Dev nD) : row0 (V m c main_v1 : Tab 1 10) = m ((c : Thread nD τ).loc main_arg4) := by
  have e : (V m c main_v1 : S1x10.Idx → EReal)
      = shapeCast S1x10 (m ((c : Thread nD τ).loc main_arg4)) shapeCasts_S10_S1x10 := by
    show StableHlo.after hostOps0 (fun b => m (c, b)) (Proc.devRef .tc main_v1) = _
    after_results
    rfl
  rw [e]
  exact row0_shapeCast _ _

theorem bias_2 (c : Dev nD) : row0 (V m c main_v2 : Tab 1 8) = m ((c : Thread nD τ).loc main_arg6) := by
  have e : (V m c main_v2 : S1x8.Idx → EReal)
      = shapeCast S1x8 (m ((c : Thread nD τ).loc main_arg6)) shapeCasts_S8_S1x8 := by
    show StableHlo.after hostOps0 (fun b => m (c, b)) (Proc.devRef .tc main_v2) = _
    after_results
    rfl
  rw [e]
  exact row0_shapeCast _ _

theorem bias_3 (c : Dev nD) : row0 (V m c main_v3 : Tab 1 6) = m ((c : Thread nD τ).loc main_arg8) := by
  have e : (V m c main_v3 : S1x6.Idx → EReal)
      = shapeCast S1x6 (m ((c : Thread nD τ).loc main_arg8)) shapeCasts_S6_S1x6 := by
    show StableHlo.after hostOps0 (fun b => m (c, b)) (Proc.devRef .tc main_v3) = _
    after_results
    rfl
  rw [e]
  exact row0_shapeCast _ _

theorem bias_4 (c : Dev nD) : row0 (V m c main_v4 : Tab 1 4) = m ((c : Thread nD τ).loc main_arg10) := by
  have e : (V m c main_v4 : S1x4.Idx → EReal)
      = shapeCast S1x4 (m ((c : Thread nD τ).loc main_arg10)) shapeCasts_S4_S1x4 := by
    show StableHlo.after hostOps0 (fun b => m (c, b)) (Proc.devRef .tc main_v4) = _
    after_results
    rfl
  rw [e]
  exact row0_shapeCast _ _

theorem bias_5 (c : Dev nD) : row0 (V m c main_v5 : Tab 1 10) = m ((c : Thread nD τ).loc main_arg12) := by
  have e : (V m c main_v5 : S1x10.Idx → EReal)
      = shapeCast S1x10 (m ((c : Thread nD τ).loc main_arg12)) shapeCasts_S10_S1x10 := by
    show StableHlo.after hostOps0 (fun b => m (c, b)) (Proc.devRef .tc main_v5) = _
    after_results
    rfl
  rw [e]
  exact row0_shapeCast _ _

/-- At every grid step the body loads the network's parameters. -/
theorem params_eq (c : Dev nD) (t : Fin cfg0.N) :
    params (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) = paramsOf m c := by
  rw [iblk_1 m c t, iblk_2 m c t, iblk_3 m c t, iblk_4 m c t, iblk_5 m c t, iblk_6 m c t, iblk_7 m c t, iblk_8 m c t,
    iblk_9 m c t, iblk_10 m c t, iblk_11 m c t, iblk_12 m c t]
  unfold params paramsOf
  rw [bias_0 m c, bias_1 m c, bias_2 m c, bias_3 m c, bias_4 m c, bias_5 m c, V_main_arg1 m c, V_main_arg3 m c,
    V_main_arg5 m c, V_main_arg7 m c, V_main_arg9 m c, V_main_arg11 m c]

/-! ## What a grid step writes back, and the whole array -/

/-- What grid step `t` writes back is block `t` of the packed table of the whole input. -/
theorem flushed_eq (c : Dev nD) (t : Fin cfg0.N) :
    (dats m 0 c).flushed 13 t
      = ((cfg0.win 13).blk t).view.read (Elt Ideal)
          (packed (paramsOf m c) (m ((c : Thread nD τ).loc main_arg0))) := by
  show (cfg0.win 13).cut (grid0.coords t) ((dats m 0 c).after 13 t) = _
  rw [after0_13]
  unfold outsAt0
  refine (congrArg ((cfg0.win 13).cut (grid0.coords t))
    (block_eq c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t)
      (ms0_9 t) (hs0_9 t) (ms0_10 t) (hs0_10 t) (ms0_11 t) (hs0_11 t) (ms0_12 t) (hs0_12 t) (ms0_13 t) (hs0_13 t)
      (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t))).trans ?_
  rw [params_eq m c t, iblk_0 m c t, V_main_arg0 m c, packed_rows]
  funext j
  show packed (paramsOf m c) (m ((c : Thread nD τ).loc main_arg0)) (ix2 (slab t.val (j 0)) (j 1))
    = packed (paramsOf m c) (m ((c : Thread nD τ).loc main_arg0)) (((cfg0.win 13).blk t).view.emb j)
  refine congrArg _ (funext fun a => Fin.ext ?_)
  have h := idx_facts t
  have ht := lt_N t
  match a with
  | ⟨0, _⟩ => show (t.val % 32) * 2048 + (j 0).val = win0_13.index t (0 : Fin 2) * 2048 + 1 * (j 0).val; omega
  | ⟨1, _⟩ => show (j 1).val = win0_13.index t (1 : Fin 2) * 128 + 1 * (j 1).val; omega

/-- An index of the packed array lies in grid step `t`'s block iff each coordinate lies in the block's range. -/
theorem mem_blk (t : Fin cfg0.N) (i : S65536x128.Idx) :
    i ∈ ((cfg0.win 13).blk t).view.set ↔ ∀ a : Fin 2, win0_13.index t a * S2048x128.size a ≤ (i a).val
      ∧ (i a).val < win0_13.index t a * S2048x128.size a + S2048x128.size a := by
  show i ∈ ((View.whole main_v6).slice (win0_13.rect t)).set ↔ _
  rw [View.set_slice_whole, Rect.mem_set_unit]
  exact Iff.rfl

/-- The 32 blocks tile the packed array (row `r` is in block `r / 2048`), so after the region it holds the packed
    table of the whole input. -/
theorem final (c : Dev nD) :
    (dats m 0 c).arrAt 13 cfg0.N = packed (paramsOf m c) (m ((c : Thread nD τ).loc main_arg0)) :=
  (dats m 0 c).arrAt_eq_of_cover 13 _ (fun t _ => flushed_eq m c t) fun i => by
    have hi0 : (i 0).val < 65536 := (i 0).isLt
    have hi1 : (i 1).val < 128 := (i 1).isLt
    have hlt : (i 0).val / 2048 < cfg0.N := by show _ < grid0.N; rw [N_0]; omega
    obtain ⟨t, ht⟩ : ∃ t : Fin cfg0.N, t.val = (i 0).val / 2048 := ⟨⟨_, hlt⟩, rfl⟩
    refine ⟨t, flush0_13 t, ?_⟩
    rw [mem_blk]
    have h := idx_facts t
    intro a
    match a with
    | ⟨0, _⟩ =>
      show win0_13.index t (0 : Fin 2) * 2048 ≤ (i 0).val ∧ (i 0).val < win0_13.index t (0 : Fin 2) * 2048 + 2048
      omega
    | ⟨1, _⟩ =>
      show win0_13.index t (1 : Fin 2) * 128 ≤ (i 1).val ∧ (i 1).val < win0_13.index t (1 : Fin 2) * 128 + 128
      omega

end Cert.KernelIdeal.Whole

end
-- ==== Proof.KernelRun.lean ====
/-
  The kernel's results. After the region the host cuts six column strips out of the packed array — columns 0–9,
  10–21, 22–31, 32–39, 40–45 and 46–49 — and returns them. The packed array is the packed table of the whole
  input, so each strip is the table that was laid there: the logits and the five hidden layers of the network on
  the whole input (`tail_*`). `run` states the program's run with each result at that value and every argument
  unchanged.
-/
import proofs.«109949_j36026185678951_2_alg».proof.Proof.KernelSlab

set_option maxRecDepth 16384

noncomputable section

namespace Cert.KernelIdeal.Whole

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Block
open Cert.Dense Cert.Packed Cert.Net

variable (m : (ℓ : Loc nD τ sig) → Buf (Elt Ideal) ℓ) (ρ : Dev nD → PrngReg)

theorem tail_logits (c : Dev nD) :
    Pipeline.afterTail₀ cfgs (dats m) 0 (V0 m) [hostOps1] c main_v7
      = logits (paramsOf m c) (m ((c : Thread nD τ).loc main_arg0)) := by
  unfold Pipeline.afterTail₀
  show StableHlo.after hostOps1 _ (Proc.devRef .tc main_v7) = _
  after_results
  refine (congrArg (fun X => extractStridedSlice S65536x10 ![0, 0] X slices_S65536x128_S65536x10_0_0)
    ((Pipeline.withArrays_arr spec0 launch0.win.arr_inj c (V0 m c) (fun w => (dats m 0 c).arrAt w (cfgs 0).N) 13).trans
      (final m c))).trans ?_
  unfold packed
  exact slice_pack_0 _ _ _ _ _ _ slices_S65536x128_S65536x10_0_0

theorem tail_hid1 (c : Dev nD) :
    Pipeline.afterTail₀ cfgs (dats m) 0 (V0 m) [hostOps1] c main_v8
      = hid1 (paramsOf m c) (m ((c : Thread nD τ).loc main_arg0)) := by
  unfold Pipeline.afterTail₀
  show StableHlo.after hostOps1 _ (Proc.devRef .tc main_v8) = _
  after_results
  refine (congrArg (fun X => extractStridedSlice S65536x12 ![0, 10] X slices_S65536x128_S65536x12_0_10)
    ((Pipeline.withArrays_arr spec0 launch0.win.arr_inj c (V0 m c) (fun w => (dats m 0 c).arrAt w (cfgs 0).N) 13).trans
      (final m c))).trans ?_
  unfold packed
  exact slice_pack_1 _ _ _ _ _ _ slices_S65536x128_S65536x12_0_10

theorem tail_hid2 (c : Dev nD) :
    Pipeline.afterTail₀ cfgs (dats m) 0 (V0 m) [hostOps1] c main_v9
      = hid2 (paramsOf m c) (m ((c : Thread nD τ).loc main_arg0)) := by
  unfold Pipeline.afterTail₀
  show StableHlo.after hostOps1 _ (Proc.devRef .tc main_v9) = _
  after_results
  refine (congrArg (fun X => extractStridedSlice S65536x10 ![0, 22] X slices_S65536x128_S65536x10_0_22)
    ((Pipeline.withArrays_arr spec0 launch0.win.arr_inj c (V0 m c) (fun w => (dats m 0 c).arrAt w (cfgs 0).N) 13).trans
      (final m c))).trans ?_
  unfold packed
  exact slice_pack_2 _ _ _ _ _ _ slices_S65536x128_S65536x10_0_22

theorem tail_hid3 (c : Dev nD) :
    Pipeline.afterTail₀ cfgs (dats m) 0 (V0 m) [hostOps1] c main_v10
      = hid3 (paramsOf m c) (m ((c : Thread nD τ).loc main_arg0)) := by
  unfold Pipeline.afterTail₀
  show StableHlo.after hostOps1 _ (Proc.devRef .tc main_v10) = _
  after_results
  refine (congrArg (fun X => extractStridedSlice S65536x8 ![0, 32] X slices_S65536x128_S65536x8_0_32)
    ((Pipeline.withArrays_arr spec0 launch0.win.arr_inj c (V0 m c) (fun w => (dats m 0 c).arrAt w (cfgs 0).N) 13).trans
      (final m c))).trans ?_
  unfold packed
  exact slice_pack_3 _ _ _ _ _ _ slices_S65536x128_S65536x8_0_32

theorem tail_hid4 (c : Dev nD) :
    Pipeline.afterTail₀ cfgs (dats m) 0 (V0 m) [hostOps1] c main_v11
      = hid4 (paramsOf m c) (m ((c : Thread nD τ).loc main_arg0)) := by
  unfold Pipeline.afterTail₀
  show StableHlo.after hostOps1 _ (Proc.devRef .tc main_v11) = _
  after_results
  refine (congrArg (fun X => extractStridedSlice S65536x6 ![0, 40] X slices_S65536x128_S65536x6_0_40)
    ((Pipeline.withArrays_arr spec0 launch0.win.arr_inj c (V0 m c) (fun w => (dats m 0 c).arrAt w (cfgs 0).N) 13).trans
      (final m c))).trans ?_
  unfold packed
  exact slice_pack_4 _ _ _ _ _ _ slices_S65536x128_S65536x6_0_40

theorem tail_hid5 (c : Dev nD) :
    Pipeline.afterTail₀ cfgs (dats m) 0 (V0 m) [hostOps1] c main_v12
      = hid5 (paramsOf m c) (m ((c : Thread nD τ).loc main_arg0)) := by
  unfold Pipeline.afterTail₀
  show StableHlo.after hostOps1 _ (Proc.devRef .tc main_v12) = _
  after_results
  refine (congrArg (fun X => extractStridedSlice S65536x4 ![0, 46] X slices_S65536x128_S65536x4_0_46)
    ((Pipeline.withArrays_arr spec0 launch0.win.arr_inj c (V0 m c) (fun w => (dats m 0 c).arrAt w (cfgs 0).N) 13).trans
      (final m c))).trans ?_
  unfold packed
  exact slice_pack_5 _ _ _ _ _ _ slices_S65536x128_S65536x4_0_46

/-- The program's run: every weakly fair execution terminates with the six results at the network's logits and
    hidden layers on the whole input, and every argument as it was. (An argument that a window stages is read off
    the frame run as that window's array; a bias vector, which no window stages, as a buffer the lines after the
    region leave alone.) -/
theorem run : θ_run defs (onTc (τ := τ) (main (F := Ideal))) ⟨m, fun _ => 0, ρ⟩ fun r => ∀ c : Dev nD,
      r.2.mem ((c.tc : Thread nD τ).loc main_v7) = logits (paramsOf m c) (m ((c : Thread nD τ).loc main_arg0))
      ∧ r.2.mem ((c.tc : Thread nD τ).loc main_v8) = hid1 (paramsOf m c) (m ((c : Thread nD τ).loc main_arg0))
      ∧ r.2.mem ((c.tc : Thread nD τ).loc main_v9) = hid2 (paramsOf m c) (m ((c : Thread nD τ).loc main_arg0))
      ∧ r.2.mem ((c.tc : Thread nD τ).loc main_v10) = hid3 (paramsOf m c) (m ((c : Thread nD τ).loc main_arg0))
      ∧ r.2.mem ((c.tc : Thread nD τ).loc main_v11) = hid4 (paramsOf m c) (m ((c : Thread nD τ).loc main_arg0))
      ∧ r.2.mem ((c.tc : Thread nD τ).loc main_v12) = hid5 (paramsOf m c) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨((h c).2 main_v7 (Pipeline.mem_restRefs_of main_v7 (by decide) (by decide))).trans (tail_logits m c),
      ((h c).2 main_v8 (Pipeline.mem_restRefs_of main_v8 (by decide) (by decide))).trans (tail_hid1 m c),
      ((h c).2 main_v9 (Pipeline.mem_restRefs_of main_v9 (by decide) (by decide))).trans (tail_hid2 m c),
      ((h c).2 main_v10 (Pipeline.mem_restRefs_of main_v10 (by decide) (by decide))).trans (tail_hid3 m c),
      ((h c).2 main_v11 (Pipeline.mem_restRefs_of main_v11 (by decide) (by decide))).trans (tail_hid4 m c),
      ((h c).2 main_v12 (Pipeline.mem_restRefs_of main_v12 (by decide) (by decide))).trans (tail_hid5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c))),
      ((h c).2 main_arg10 (Pipeline.mem_restRefs_of main_arg10 (by decide) (by decide))).trans
        (W_main_arg10 m (dats m) c),
      ((h c).1 11).trans (((dats m 0 c).arrAt_in 11 rfl _).trans ((A_eq m c 11).trans (V_main_arg11 m c))),
      ((h c).2 main_arg12 (Pipeline.mem_restRefs_of main_arg12 (by decide) (by decide))).trans
        (W_main_arg12 m (dats m) c)⟩)
    (run_main m ρ)

end Cert.KernelIdeal.Whole

end
-- ==== Proof.RefValue.lean ====
/-
  The reference's results are the network's functions of its arguments.

  The reference computes each layer on all 65536 rows at once: a `dot_general` contracting the columns of the
  previous table with the rows of the weight table, plus the bias vector broadcast to a one-row table and then
  down the rows, under the host's hyperbolic tangent (the last layer has none). `term1` … `term6` spell the six
  result terms of its run, each over the one before; by the host form of a dense layer each is the network's
  `hid1` … `hid5`, `logits`.
-/
import proofs.«109949_j36026185678951_2_alg».proof.Proof.RefRun
import proofs.«109949_j36026185678951_2_alg».proof.Proof.Network

noncomputable section

namespace Cert.ReferenceIdeal.RefValue

open Idealize.ShloMosaic Idealize.ShloMosaic.TcCoe Idealize.SL.Sem
open Cert.ReferenceIdeal Cert.ReferenceIdeal.Gen
open Cert.Dense Cert.Packed Cert.Net

variable (P : Params) (x : Tab 65536 784)

/-- The first hidden layer as the reference spells it. -/
def term1 : Tab 65536 12 :=
  Host.tanh (F := Ideal) (addf (Host.dotGeneral (F := Ideal) (φ₁ := .f32) (φ₂ := .f32) dot_S65536x784_S784x12_S65536x12_1_0_0_1_n_n none x P.W1)
    (broadcastInDim S65536x12 ![0, 1] bcast_S1x12_S65536x12_0_1 (broadcastInDim S1x12 ![1] bcast_S12_S1x12_1 P.b1)))

def term2 : Tab 65536 10 :=
  Host.tanh (F := Ideal) (addf (Host.dotGeneral (F := Ideal) (φ₁ := .f32) (φ₂ := .f32) dot_S65536x12_S12x10_S65536x10_1_0_0_1_n_n none (term1 P x) P.W2)
    (broadcastInDim S65536x10 ![0, 1] bcast_S1x10_S65536x10_0_1 (broadcastInDim S1x10 ![1] bcast_S10_S1x10_1 P.b2)))

def term3 : Tab 65536 8 :=
  Host.tanh (F := Ideal) (addf (Host.dotGeneral (F := Ideal) (φ₁ := .f32) (φ₂ := .f32) dot_S65536x10_S10x8_S65536x8_1_0_0_1_n_n none (term2 P x) P.W3)
    (broadcastInDim S65536x8 ![0, 1] bcast_S1x8_S65536x8_0_1 (broadcastInDim S1x8 ![1] bcast_S8_S1x8_1 P.b3)))

def term4 : Tab 65536 6 :=
  Host.tanh (F := Ideal) (addf (Host.dotGeneral (F := Ideal) (φ₁ := .f32) (φ₂ := .f32) dot_S65536x8_S8x6_S65536x6_1_0_0_1_n_n none (term3 P x) P.W4)
    (broadcastInDim S65536x6 ![0, 1] bcast_S1x6_S65536x6_0_1 (broadcastInDim S1x6 ![1] bcast_S6_S1x6_1 P.b4)))

def term5 : Tab 65536 4 :=
  Host.tanh (F := Ideal) (addf (Host.dotGeneral (F := Ideal) (φ₁ := .f32) (φ₂ := .f32) dot_S65536x6_S6x4_S65536x4_1_0_0_1_n_n none (term4 P x) P.W5)
    (broadcastInDim S65536x4 ![0, 1] bcast_S1x4_S65536x4_0_1 (broadcastInDim S1x4 ![1] bcast_S4_S1x4_1 P.b5)))

/-- The logits as the reference spells them: no activation. -/
def term6 : Tab 65536 10 :=
  addf (Host.dotGeneral (F := Ideal) (φ₁ := .f32) (φ₂ := .f32) dot_S65536x4_S4x10_S65536x10_1_0_0_1_n_n none (term5 P x) P.W6)
    (broadcastInDim S65536x10 ![0, 1] bcast_S1x10_S65536x10_0_1 (broadcastInDim S1x10 ![1] bcast_S10_S1x10_1 P.b6))

theorem term1_eq : term1 P x = hid1 P x :=
  host_layer dot_S65536x784_S784x12_S65536x12_1_0_0_1_n_n_wf bcast_S12_S1x12_1 bcast_S1x12_S65536x12_0_1 x P.W1 P.b1

theorem term2_eq : term2 P x = hid2 P x :=
  (host_layer dot_S65536x12_S12x10_S65536x10_1_0_0_1_n_n_wf bcast_S10_S1x10_1 bcast_S1x10_S65536x10_0_1
    (term1 P x) P.W2 P.b2).trans (congrArg (fun h => layer h P.W2 P.b2) (term1_eq P x))

theorem term3_eq : term3 P x = hid3 P x :=
  (host_layer dot_S65536x10_S10x8_S65536x8_1_0_0_1_n_n_wf bcast_S8_S1x8_1 bcast_S1x8_S65536x8_0_1
    (term2 P x) P.W3 P.b3).trans (congrArg (fun h => layer h P.W3 P.b3) (term2_eq P x))

theorem term4_eq : term4 P x = hid4 P x :=
  (host_layer dot_S65536x8_S8x6_S65536x6_1_0_0_1_n_n_wf bcast_S6_S1x6_1 bcast_S1x6_S65536x6_0_1
    (term3 P x) P.W4 P.b4).trans (congrArg (fun h => layer h P.W4 P.b4) (term3_eq P x))

theorem term5_eq : term5 P x = hid5 P x :=
  (host_layer dot_S65536x6_S6x4_S65536x4_1_0_0_1_n_n_wf bcast_S4_S1x4_1 bcast_S1x4_S65536x4_0_1
    (term4 P x) P.W5 P.b5).trans (congrArg (fun h => layer h P.W5 P.b5) (term4_eq P x))

theorem term6_eq : term6 P x = logits P x :=
  (host_affine dot_S65536x4_S4x10_S65536x10_1_0_0_1_n_n_wf bcast_S10_S1x10_1 bcast_S1x10_S65536x10_0_1
    (term5 P x) P.W6 P.b6).trans (congrArg (fun h => affine h P.W6 P.b6) (term5_eq P x))

end Cert.ReferenceIdeal.RefValue

end
-- ==== Proof.lean ====
/-
  A six-layer perceptron on 65536 rows of 784 features, computed two ways.

  Both programs compute, row by row,

      h₁ = tanh (x · W₁ + b₁),  h₂ = tanh (h₁ · W₂ + b₂),  …,  h₅ = tanh (h₄ · W₅ + b₅),  out = h₅ · W₆ + b₆

  (widths 12, 10, 8, 6, 4, 10) and return `(out, h₁, …, h₅)`. The reference does each layer on all rows at once.
  The kernel cuts the rows into 32 slabs of 2048, computes the whole network on a slab per grid step — a layer's row
  depends on the same row of its input only — and stores the six results side by side as column strips of one
  128-column table, zero beyond column 49; the host then cuts the six strips out again.

  On the extended reals the two agree with no condition on the inputs: each product is the same sum over the
  contracted index (a product into a zero accumulator on the matrix unit, a `dot_general` on the host), the bias is
  the same entry however it is broadcast, and the hyperbolic tangent is one function. No sum is regrouped and no
  factor is moved across a sum, so finiteness of the inputs is never used.

  The modules: `LibDense` (a dense layer, its two spellings, rows), `Packed` (the 128-column layout), `Network`
  (the six results and their packing), `KernelBlock` (one grid step's block), `KernelSlab` (from blocks to the
  whole packed array), `KernelRun` (the host's strips; the kernel's run), `RefRun` (the reference's run),
  `RefValue` (its six result terms are the network's).
-/
import proofs.«109949_j36026185678951_2_alg».proof.Defs
import proofs.«109949_j36026185678951_2_alg».proof.Proof.Gen.Kernel
import proofs.«109949_j36026185678951_2_alg».proof.Proof.Gen.Kernel.Skeleton
import proofs.«109949_j36026185678951_2_alg».proof.Proof.Gen.Kernel.Launch
import proofs.«109949_j36026185678951_2_alg».proof.Proof.Gen.Kernel.Points
import proofs.«109949_j36026185678951_2_alg».proof.Proof.Gen.Kernel.Frame
import proofs.«109949_j36026185678951_2_alg».proof.Proof.Gen.KernelIdeal
import proofs.«109949_j36026185678951_2_alg».proof.Proof.Gen.KernelIdeal.Skeleton
import proofs.«109949_j36026185678951_2_alg».proof.Proof.Gen.KernelIdeal.Launch
import proofs.«109949_j36026185678951_2_alg».proof.Proof.Gen.KernelIdeal.Points
import proofs.«109949_j36026185678951_2_alg».proof.Proof.Gen.KernelIdeal.Frame
import proofs.«109949_j36026185678951_2_alg».proof.Proof.Gen.ReferenceIdeal
import proofs.«109949_j36026185678951_2_alg».proof.Proof.Gen.Pre_finite_inputs
import proofs.«109949_j36026185678951_2_alg».proof.Proof.KernelRun
import proofs.«109949_j36026185678951_2_alg».proof.Proof.RefValue
import Idealize.ShloMosaic.Adequacy
import Idealize.ShloMosaic.Init

noncomputable section

namespace Cert.Proof

open Idealize.ShloMosaic Idealize.ShloMosaic.TcCoe Idealize.SL.Sem
open Cert.Net

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a line of host operations: its run, with the six results forgotten. -/
theorem frame_ri : Cert.frame_ReferenceIdeal := fun m ρ _ =>
  (θ_run Cert.ReferenceIdeal.defs _ _).mono (fun _ h c => (h c).2.2.2.2.2.2)
    (Cert.ReferenceIdeal.ValueP.run (F := Ideal) m ρ)

/-- The two programs, from memories that agree on the arguments, end with the same six tables: the network's logits
    and hidden layers of the arguments. The kernel's run states them so; the reference's run states its six result
    terms, which after the arguments are identified are `term6`, `term1`, …, `term5` of the same parameters and input. -/
theorem algebraic : Cert.algebraic_KernelIdeal_ReferenceIdeal := by
  intro m ρ m' ρ' _ hagree
  refine ⟨_, _, _, _, _, _, Cert.KernelIdeal.Whole.run m ρ, ?_⟩
  refine (θ_run Cert.ReferenceIdeal.defs _ _).mono (fun _ h c => ?_)
    (Cert.ReferenceIdeal.ValueP.run (F := Ideal) m' ρ')
  obtain ⟨a0, a1, a2, a3, a4, a5, a6, a7, a8, a9, a10, a11, a12⟩ := hagree c
  obtain ⟨r0, r1, r2, r3, r4, r5, rest⟩ := h c
  rw [a0, a1, a2, a3, a4, a5, a6, a7, a8, a9, a10, a11, a12] at r0
  rw [a0, a1, a2] at r1
  rw [a0, a1, a2, a3, a4] at r2
  rw [a0, a1, a2, a3, a4, a5, a6] at r3
  rw [a0, a1, a2, a3, a4, a5, a6, a7, a8] at r4
  rw [a0, a1, a2, a3, a4, a5, a6, a7, a8, a9, a10] at r5
  exact ⟨r0.trans (Cert.ReferenceIdeal.RefValue.term6_eq (Cert.KernelIdeal.Whole.paramsOf m c) _),
    r1.trans (Cert.ReferenceIdeal.RefValue.term1_eq (Cert.KernelIdeal.Whole.paramsOf m c) _),
    r2.trans (Cert.ReferenceIdeal.RefValue.term2_eq (Cert.KernelIdeal.Whole.paramsOf m c) _),
    r3.trans (Cert.ReferenceIdeal.RefValue.term3_eq (Cert.KernelIdeal.Whole.paramsOf m c) _),
    r4.trans (Cert.ReferenceIdeal.RefValue.term4_eq (Cert.KernelIdeal.Whole.paramsOf m c) _),
    r5.trans (Cert.ReferenceIdeal.RefValue.term5_eq (Cert.KernelIdeal.Whole.paramsOf m c) _),
    rest⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
